-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S512x1024 : Shape := ⟨2, ![512, 1024]⟩
abbrev S512x3072 : Shape := ⟨2, ![512, 3072]⟩
abbrev S1x1024 : Shape := ⟨2, ![1, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S1x256x64 : Shape := ⟨3, ![1, 256, 64]⟩
abbrev S256x64 : Shape := ⟨2, ![256, 64]⟩
abbrev S1x2048x64 : Shape := ⟨3, ![1, 2048, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x3072, .f32⟩
  | .hbm, ⟨11, _⟩ => ⟨S1024x3072, .bf16⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x2048x1024, .f32⟩
  | .local _ .vmem, ⟨12, _⟩ => ⟨S1x2048x1024, .f32⟩
  | .local _ .vmem, ⟨13, _⟩ => ⟨S1x2048x1024, .f32⟩
  | .local _ .vmem, ⟨14, _⟩ => ⟨S1x2048x1024, .f32⟩
  | .local _ .vmem, ⟨15, _⟩ => ⟨S1024x1024, .bf16⟩
  | .local _ .vmem, ⟨16, _⟩ => ⟨S1x1024, .f32⟩
  | .local _ .vmem, ⟨17, _⟩ => ⟨S1x256x1024, .f32⟩
  | .local _ .vmem, ⟨18, _⟩ => ⟨S1x256x1024, .f32⟩
  | .local _ .vmem, ⟨19, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S2x2048x1024_S4096x1024 : S2x2048x1024.ShapeCasts S4096x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S4096x1024_S2x2048x1024 : S4096x1024.ShapeCasts S2x2048x1024
  shapeCasts_S1024_S1x1024 : S1024.ShapeCasts S1x1024
  inb_S1x256x1024_S1x256x64_0_0_0 : ∀ a, (![0, 0, 0] : Fin 3 → Nat) a + S1x256x64.size a ≤ S1x256x1024.size a
  h_S1x256x64 : 0 < S1x256x64.numel
  shapeCasts_S1x256x64_S256x64 : S1x256x64.ShapeCasts S256x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  inb_S256x1024_S256x64_0_0 : ∀ a, (![0, 0] : Fin 2 → Nat) a + S256x64.size a ≤ S256x1024.size a
  h_S256x64 : 0 < S256x64.numel
  shapeCasts_S256x64_S256x64 : S256x64.ShapeCasts S256x64
  inb_S1x256x1024_S1x256x64_0_0_64 : ∀ a, (![0, 0, 64] : Fin 3 → Nat) a + S1x256x64.size a ≤ S1x256x1024.size a
  inb_S1x2048x1024_S1x2048x64_0_0_64 : ∀ a, (![0, 0, 64] : Fin 3 → Nat) a + S1x2048x64.size a ≤ S1x2048x1024.size a
  inb_S256x1024_S256x64_0_64 : ∀ a, (![0, 64] : Fin 2 → Nat) a + S256x64.size a ≤ S256x1024.size a
  inb_S1x256x1024_S1x256x64_0_0_128 : ∀ a, (![0, 0, 128] : Fin 3 → Nat) a + S1x256x64.size a ≤ S1x256x1024.size a
  inb_S1x2048x1024_S1x2048x64_0_0_128 : ∀ a, (![0, 0, 128] : Fin 3 → Nat) a + S1x2048x64.size a ≤ S1x2048x1024.size a
  inb_S256x1024_S256x64_0_128 : ∀ a, (![0, 128] : Fin 2 → Nat) a + S256x64.size a ≤ S256x1024.size a
  inb_S1x256x1024_S1x256x64_0_0_192 : ∀ a, (![0, 0, 192] : Fin 3 → Nat) a + S1x256x64.size a ≤ S1x256x1024.size a
  inb_S1x2048x1024_S1x2048x64_0_0_192 : ∀ a, (![0, 0, 192] : Fin 3 → Nat) a + S1x2048x64.size a ≤ S1x2048x1024.size a
  inb_S256x1024_S256x64_0_192 : ∀ a, (![0, 192] : Fin 2 → Nat) a + S256x64.size a ≤ S256x1024.size a
  inb_S1x256x1024_S1x256x64_0_0_256 : ∀ a, (![0, 0, 256] : Fin 3 → Nat) a + S1x256x64.size a ≤ S1x256x1024.size a
  inb_S1x2048x1024_S1x2048x64_0_0_256 : ∀ a, (![0, 0, 256] : Fin 3 → Nat) a + S1x2048x64.size a ≤ S1x2048x1024.size a
  inb_S256x1024_S256x64_0_256 : ∀ a, (![0, 256] : Fin 2 → Nat) a + S256x64.size a ≤ S256x1024.size a
  inb_S1x256x1024_S1x256x64_0_0_320 : ∀ a, (![0, 0, 320] : Fin 3 → Nat) a + S1x256x64.size a ≤ S1x256x1024.size a
  inb_S1x2048x1024_S1x2048x64_0_0_320 : ∀ a, (![0, 0, 320] : Fin 3 → Nat) a + S1x2048x64.size a ≤ S1x2048x1024.size a
  inb_S256x1024_S256x64_0_320 : ∀ a, (![0, 320] : Fin 2 → Nat) a + S256x64.size a ≤ S256x1024.size a
  inb_S1x256x1024_S1x256x64_0_0_384 : ∀ a, (![0, 0, 384] : Fin 3 → Nat) a + S1x256x64.size a ≤ S1x256x1024.size a
  inb_S1x2048x1024_S1x2048x64_0_0_384 : ∀ a, (![0, 0, 384] : Fin 3 → Nat) a + S1x2048x64.size a ≤ S1x2048x1024.size a
  inb_S256x1024_S256x64_0_384 : ∀ a, (![0, 384] : Fin 2 → Nat) a + S256x64.size a ≤ S256x1024.size a
  inb_S1x256x1024_S1x256x64_0_0_448 : ∀ a, (![0, 0, 448] : Fin 3 → Nat) a + S1x256x64.size a ≤ S1x256x1024.size a
  inb_S1x2048x1024_S1x2048x64_0_0_448 : ∀ a, (![0, 0, 448] : Fin 3 → Nat) a + S1x2048x64.size a ≤ S1x2048x1024.size a
  inb_S256x1024_S256x64_0_448 : ∀ a, (![0, 448] : Fin 2 → Nat) a + S256x64.size a ≤ S256x1024.size a
  inb_S1x256x1024_S1x256x64_0_0_512 : ∀ a, (![0, 0, 512] : Fin 3 → Nat) a + S1x256x64.size a ≤ S1x256x1024.size a
  inb_S1x2048x1024_S1x2048x64_0_0_512 : ∀ a, (![0, 0, 512] : Fin 3 → Nat) a + S1x2048x64.size a ≤ S1x2048x1024.size a
  inb_S256x1024_S256x64_0_512 : ∀ a, (![0, 512] : Fin 2 → Nat) a + S256x64.size a ≤ S256x1024.size a
  inb_S1x256x1024_S1x256x64_0_0_576 : ∀ a, (![0, 0, 576] : Fin 3 → Nat) a + S1x256x64.size a ≤ S1x256x1024.size a
  inb_S1x2048x1024_S1x2048x64_0_0_576 : ∀ a, (![0, 0, 576] : Fin 3 → Nat) a + S1x2048x64.size a ≤ S1x2048x1024.size a
  inb_S256x1024_S256x64_0_576 : ∀ a, (![0, 576] : Fin 2 → Nat) a + S256x64.size a ≤ S256x1024.size a
  inb_S1x256x1024_S1x256x64_0_0_640 : ∀ a, (![0, 0, 640] : Fin 3 → Nat) a + S1x256x64.size a ≤ S1x256x1024.size a
  inb_S1x2048x1024_S1x2048x64_0_0_640 : ∀ a, (![0, 0, 640] : Fin 3 → Nat) a + S1x2048x64.size a ≤ S1x2048x1024.size a
  inb_S256x1024_S256x64_0_640 : ∀ a, (![0, 640] : Fin 2 → Nat) a + S256x64.size a ≤ S256x1024.size a
  inb_S1x256x1024_S1x256x64_0_0_704 : ∀ a, (![0, 0, 704] : Fin 3 → Nat) a + S1x256x64.size a ≤ S1x256x1024.size a
  inb_S1x2048x1024_S1x2048x64_0_0_704 : ∀ a, (![0, 0, 704] : Fin 3 → Nat) a + S1x2048x64.size a ≤ S1x2048x1024.size a
  inb_S256x1024_S256x64_0_704 : ∀ a, (![0, 704] : Fin 2 → Nat) a + S256x64.size a ≤ S256x1024.size a
  inb_S1x256x1024_S1x256x64_0_0_768 : ∀ a, (![0, 0, 768] : Fin 3 → Nat) a + S1x256x64.size a ≤ S1x256x1024.size a
  inb_S1x2048x1024_S1x2048x64_0_0_768 : ∀ a, (![0, 0, 768] : Fin 3 → Nat) a + S1x2048x64.size a ≤ S1x2048x1024.size a
  inb_S256x1024_S256x64_0_768 : ∀ a, (![0, 768] : Fin 2 → Nat) a + S256x64.size a ≤ S256x1024.size a
  inb_S1x256x1024_S1x256x64_0_0_832 : ∀ a, (![0, 0, 832] : Fin 3 → Nat) a + S1x256x64.size a ≤ S1x256x1024.size a
  inb_S1x2048x1024_S1x2048x64_0_0_832 : ∀ a, (![0, 0, 832] : Fin 3 → Nat) a + S1x2048x64.size a ≤ S1x2048x1024.size a
  inb_S256x1024_S256x64_0_832 : ∀ a, (![0, 832] : Fin 2 → Nat) a + S256x64.size a ≤ S256x1024.size a
  inb_S1x256x1024_S1x256x64_0_0_896 : ∀ a, (![0, 0, 896] : Fin 3 → Nat) a + S1x256x64.size a ≤ S1x256x1024.size a
  inb_S1x2048x1024_S1x2048x64_0_0_896 : ∀ a, (![0, 0, 896] : Fin 3 → Nat) a + S1x2048x64.size a ≤ S1x2048x1024.size a
  inb_S256x1024_S256x64_0_896 : ∀ a, (![0, 896] : Fin 2 → Nat) a + S256x64.size a ≤ S256x1024.size a
  inb_S1x256x1024_S1x256x64_0_0_960 : ∀ a, (![0, 0, 960] : Fin 3 → Nat) a + S1x256x64.size a ≤ S1x256x1024.size a
  inb_S1x2048x1024_S1x2048x64_0_0_960 : ∀ a, (![0, 0, 960] : Fin 3 → Nat) a + S1x2048x64.size a ≤ S1x2048x1024.size a
  inb_S256x1024_S256x64_0_960 : ∀ a, (![0, 960] : Fin 2 → Nat) a + S256x64.size a ≤ S256x1024.size a
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S2x2048x1024.size a
  hwx1_0 : ∀ i : grid1.Coords, EltTy.bits .f32 = 32 ∨ (Rect.block (s := S2x2048x1024) S1x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x1024.size a
  hwx1_1 : ∀ i : grid1.Coords, EltTy.bits .f32 = 32 ∨ (Rect.block (s := S2x2048x1024) S1x2048x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S2x2048x1024.size a
  hwx1_2 : ∀ i : grid1.Coords, EltTy.bits .f32 = 32 ∨ (Rect.block (s := S2x2048x1024) S1x2048x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S2x2048x1024.size a
  hwx1_5 : ∀ i : grid1.Coords, EltTy.bits .f32 = 32 ∨ (Rect.block (s := S2x2048x1024) S1x256x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Multi-head attention over the extended reals, as one function of the argument arrays.

  Shapes: a batch of 2 sequences of 2048 positions with 1024 features; 16 heads of 64 features each; four
  1024 × 1024 weight matrices stored [out, in] and a bias of length 1024.

  The projections are `q = x · Wqᵀ`, `k = x · Wkᵀ`, `v = x · Wvᵀ`.  For a head `h`, a query position `s` and
  a key position `t` the score is the dot product of the head's 64 columns of `q` at `s` and of `k` at `t`.
  The two programs normalise differently:
  * `ctxScaled`  scales the score by a constant `c`, subtracts the row maximum, exponentiates, sums the products with
    `v` over the key positions and divides that SUM by the row's total weight;
  * `ctxDivided` divides the score by a constant `e`, subtracts the row maximum, exponentiates, divides EACH weight by
    the row's total and then sums the products with `v`.
  Both end with `out = ctx · Woᵀ + bo`.
-/
import Idealize.ShloMosaic.PureOps.Ideal
import Idealize.ShloMosaic.Lib.ValueIdx

noncomputable section

open scoped BigOperators

namespace Cert.MHA

open Idealize.ShloMosaic Idealize.ShloMosaic.ValueIdx

/-- An array [2, 2048, 1024] by coordinates. -/
abbrev Arr3 : Type := Fin 2 → Fin 2048 → Fin 1024 → EReal
/-- A matrix [1024, 1024] by coordinates. -/
abbrev Mat : Type := Fin 1024 → Fin 1024 → EReal

/-- An array [2, 2048, 1024] given on indices, by coordinates. -/
abbrev curry3 (X : (⟨3, ![2, 2048, 1024]⟩ : Shape).Idx → EReal) : Arr3 := fun b s d => X (ix3 b s d)
/-- A matrix [1024, 1024] given on indices, by coordinates. -/
abbrev curry2 (W : (⟨2, ![1024, 1024]⟩ : Shape).Idx → EReal) : Mat := fun e d => W (ix2 e d)
/-- A vector [1024] given on indices, by its coordinate. -/
abbrev curry1 (v : (⟨1, ![1024]⟩ : Shape).Idx → EReal) : Fin 1024 → EReal := fun e => v (ix1 e)

/-- `x · Wᵀ`: entry (b, s, e) is the sum over the input feature `d` of `x[b, s, d] · W[e, d]`. -/
def proj (x : Arr3) (W : Mat) : Arr3 := fun b s e => ∑ d : Fin 1024, x b s d * W e d

/-- Column `j` of head `h` among the 1024 features. -/
def hcol (h : Fin 16) (j : Fin 64) : Fin 1024 := ⟨h.val * 64 + j.val, by omega⟩

/-- The head of a feature column, and its place in the head. -/
def headOf (d : Fin 1024) : Fin 16 := ⟨d.val / 64, by omega⟩
def laneOf (d : Fin 1024) : Fin 64 := ⟨d.val % 64, by omega⟩

theorem hcol_headOf_laneOf (d : Fin 1024) : hcol (headOf d) (laneOf d) = d := by
  apply Fin.ext; simp only [hcol, headOf, laneOf]; omega

/-- The score of query position `s` against key position `t` in head `h` of batch `b`. -/
def score (q k : Arr3) (b : Fin 2) (h : Fin 16) (s t : Fin 2048) : EReal :=
  ∑ j : Fin 64, q b s (hcol h j) * k b t (hcol h j)

/-- The context with the score SCALED by `c` and the weighted sum of `v` divided by the row's total weight;
    `ninf` is the value the row maximum starts from. -/
def ctxScaled (c ninf : EReal) (q k v : Arr3) (b : Fin 2) (s : Fin 2048) (h : Fin 16) (j : Fin 64) : EReal :=
  let z : Fin 2048 → EReal := fun t => score q k b h s t * c
  let mx : EReal := (Finset.univ : Finset (Fin 2048)).fold max ninf z
  let p : Fin 2048 → EReal := fun t => Ideal.exp (z t - mx)
  Ideal.div (∑ t : Fin 2048, p t * v b t (hcol h j)) (∑ t : Fin 2048, p t)

/-- The context with the score DIVIDED by `e`, the row maximum taken once more against `ninf`, the row's total
    started from `zero`, and each weight divided by the total before the sum with `v`. -/
def ctxDivided (e ninf zero : EReal) (q k v : Arr3) (b : Fin 2) (s : Fin 2048) (h : Fin 16) (j : Fin 64) : EReal :=
  let z : Fin 2048 → EReal := fun t => Ideal.div (score q k b h s t) e
  let mx : EReal := max ninf ((Finset.univ : Finset (Fin 2048)).fold max ninf z)
  let p : Fin 2048 → EReal := fun t => Ideal.exp (z t - mx)
  let l : EReal := zero + ∑ t : Fin 2048, p t
  ∑ t : Fin 2048, Ideal.div (p t) l * v b t (hcol h j)

/-- The output projection and bias: `out[b, s, e] = ∑ d, ctx[b, s, d] · Wo[e, d] + bo[e]`, the context given per head. -/
def outProj (ctx : Fin 2 → Fin 2048 → Fin 16 → Fin 64 → EReal) (Wo : Mat) (bo : Fin 1024 → EReal) : Arr3 :=
  fun b s e => (∑ d : Fin 1024, ctx b s (headOf d) (laneOf d) * Wo e d) + bo e

/-- The literals the two programs print: 0.125, 8.0, −∞ and 0.0 as f32 words. -/
abbrev cEighth : EReal := Ideal.ofBits .f32 0x3E000000#32
abbrev cEight : EReal := Ideal.ofBits .f32 0x41000000#32
abbrev cNegInf : EReal := Ideal.ofBits .f32 0xFF800000#32
abbrev cZero : EReal := Ideal.ofBits .f32 0x00000000#32

/-- What the kernel computes, by coordinates. -/
def kernelSpec (x : Arr3) (Wq Wk Wv Wo : Mat) (bo : Fin 1024 → EReal) : Arr3 :=
  outProj (ctxScaled cEighth cNegInf (proj x Wq) (proj x Wk) (proj x Wv)) Wo bo

/-- What the reference computes, by coordinates. -/
def referenceSpec (x : Arr3) (Wq Wk Wv Wo : Mat) (bo : Fin 1024 → EReal) : Arr3 :=
  outProj (ctxDivided cEight cNegInf cZero (proj x Wq) (proj x Wk) (proj x Wv)) Wo bo

/-- An extended real that is a real number. -/
def IsReal (a : EReal) : Prop := ∃ r : ℝ, a = (r : EReal)

end Cert.MHA

end
-- ==== Proof.Blocks.lean ====
/-
  The two pipelined regions of the attention program, as data: which block of which array each window holds at a grid
  point, what each region's body leaves in its output buffers as a function of the blocks it was handed, and what every
  buffer of the program holds between the host stretches and the regions.

  Region 0 (8 points, 512 rows each): the body multiplies the 512 × 1024 block of the flattened input by the whole
  1024 × 3072 weight matrix and stores the three 512 × 1024 column slices of the product, each whole, into the q, k and
  v outputs.
  Region 1 (2 × 8 points: batch, 256 query rows): for each of the 16 heads the body takes the head's 64 columns of the
  q block and of the whole k and v blocks of the batch, and stores the head's 256 × 64 result into columns 64·h … 64·h+63
  of a 256 × 1024 scratch; the 16 column stores tile the scratch.  It then reads the scratch whole, multiplies by the
  output weights, adds the bias row and stores the 1 × 256 × 1024 result whole.
  Every statement here holds at any float instance.
-/
import proofs.«179820_j79611513799233_2_alg».proof.Proof.Gen.KernelIdeal.Launch
import proofs.«179820_j79611513799233_2_alg».proof.Proof.Gen.KernelIdeal.Skeleton
import proofs.«179820_j79611513799233_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffer contents a region is entered with: each region's half is stated at this parameter
variable (V : (c : Dev nD) → (b : Ref sig .tc) → Buf (Elt F) ((c : Thread nD τ).loc b))

/-! # Region 0: the fused q / k / v projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 × 1024 buffer and the whole 1024 × 3072 buffer, as rectangles. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0

/-- What the body leaves in the q, k and v output buffers: the three column slices of (input block) · (weights). -/
def out0_2 (x0 : Vec F S512x1024 .f32) (x1 : Vec F S1024x3072 .bf16) : Vec F S512x1024 .f32 :=
  View.canon [⟨rX, k0_pay2 (View.ld x0 rX) (View.ld x1 rW)⟩]
def out0_3 (x0 : Vec F S512x1024 .f32) (x1 : Vec F S1024x3072 .bf16) : Vec F S512x1024 .f32 :=
  View.canon [⟨rX, k0_pay3 (View.ld x0 rX) (View.ld x1 rW)⟩]
def out0_4 (x0 : Vec F S512x1024 .f32) (x1 : Vec F S1024x3072 .bf16) : Vec F S512x1024 .f32 :=
  View.canon [⟨rX, k0_pay4 (View.ld x0 rX) (View.ld x1 rW)⟩]

/-- One whole store covers the buffer. -/
theorem cover0 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-- The proof data of region 0 on core `c`: the arrays as the region finds them; after the body at point `t` each input's
    buffer at its block and each output's at its slice of the product; the scoped rest and the generator register as the
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- An input's current staging buffer holds its block at every point, fetched there or not: an unfetched window's index
    has not moved since the fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! # Region 1: the attention heads and the output projection -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Head `h`'s 64 columns of the q block, of the k / v blocks, and of the scratch. -/
abbrev rQ0 : Rect S1x256x1024 := Rect.unit (s := S1x256x1024) ![0, 0, 0] S1x256x64.size inb_S1x256x1024_S1x256x64_0_0_0
abbrev rQ1 : Rect S1x256x1024 := Rect.unit (s := S1x256x1024) ![0, 0, 64] S1x256x64.size inb_S1x256x1024_S1x256x64_0_0_64
abbrev rQ2 : Rect S1x256x1024 := Rect.unit (s := S1x256x1024) ![0, 0, 128] S1x256x64.size inb_S1x256x1024_S1x256x64_0_0_128
abbrev rQ3 : Rect S1x256x1024 := Rect.unit (s := S1x256x1024) ![0, 0, 192] S1x256x64.size inb_S1x256x1024_S1x256x64_0_0_192
abbrev rQ4 : Rect S1x256x1024 := Rect.unit (s := S1x256x1024) ![0, 0, 256] S1x256x64.size inb_S1x256x1024_S1x256x64_0_0_256
abbrev rQ5 : Rect S1x256x1024 := Rect.unit (s := S1x256x1024) ![0, 0, 320] S1x256x64.size inb_S1x256x1024_S1x256x64_0_0_320
abbrev rQ6 : Rect S1x256x1024 := Rect.unit (s := S1x256x1024) ![0, 0, 384] S1x256x64.size inb_S1x256x1024_S1x256x64_0_0_384
abbrev rQ7 : Rect S1x256x1024 := Rect.unit (s := S1x256x1024) ![0, 0, 448] S1x256x64.size inb_S1x256x1024_S1x256x64_0_0_448
abbrev rQ8 : Rect S1x256x1024 := Rect.unit (s := S1x256x1024) ![0, 0, 512] S1x256x64.size inb_S1x256x1024_S1x256x64_0_0_512
abbrev rQ9 : Rect S1x256x1024 := Rect.unit (s := S1x256x1024) ![0, 0, 576] S1x256x64.size inb_S1x256x1024_S1x256x64_0_0_576
abbrev rQ10 : Rect S1x256x1024 := Rect.unit (s := S1x256x1024) ![0, 0, 640] S1x256x64.size inb_S1x256x1024_S1x256x64_0_0_640
abbrev rQ11 : Rect S1x256x1024 := Rect.unit (s := S1x256x1024) ![0, 0, 704] S1x256x64.size inb_S1x256x1024_S1x256x64_0_0_704
abbrev rQ12 : Rect S1x256x1024 := Rect.unit (s := S1x256x1024) ![0, 0, 768] S1x256x64.size inb_S1x256x1024_S1x256x64_0_0_768
abbrev rQ13 : Rect S1x256x1024 := Rect.unit (s := S1x256x1024) ![0, 0, 832] S1x256x64.size inb_S1x256x1024_S1x256x64_0_0_832
abbrev rQ14 : Rect S1x256x1024 := Rect.unit (s := S1x256x1024) ![0, 0, 896] S1x256x64.size inb_S1x256x1024_S1x256x64_0_0_896
abbrev rQ15 : Rect S1x256x1024 := Rect.unit (s := S1x256x1024) ![0, 0, 960] S1x256x64.size inb_S1x256x1024_S1x256x64_0_0_960
abbrev rK0 : Rect S1x2048x1024 := Rect.unit (s := S1x2048x1024) ![0, 0, 0] S1x2048x64.size inb_S1x2048x1024_S1x2048x64_0_0_0
abbrev rK1 : Rect S1x2048x1024 := Rect.unit (s := S1x2048x1024) ![0, 0, 64] S1x2048x64.size inb_S1x2048x1024_S1x2048x64_0_0_64
abbrev rK2 : Rect S1x2048x1024 := Rect.unit (s := S1x2048x1024) ![0, 0, 128] S1x2048x64.size inb_S1x2048x1024_S1x2048x64_0_0_128
abbrev rK3 : Rect S1x2048x1024 := Rect.unit (s := S1x2048x1024) ![0, 0, 192] S1x2048x64.size inb_S1x2048x1024_S1x2048x64_0_0_192
abbrev rK4 : Rect S1x2048x1024 := Rect.unit (s := S1x2048x1024) ![0, 0, 256] S1x2048x64.size inb_S1x2048x1024_S1x2048x64_0_0_256
abbrev rK5 : Rect S1x2048x1024 := Rect.unit (s := S1x2048x1024) ![0, 0, 320] S1x2048x64.size inb_S1x2048x1024_S1x2048x64_0_0_320
abbrev rK6 : Rect S1x2048x1024 := Rect.unit (s := S1x2048x1024) ![0, 0, 384] S1x2048x64.size inb_S1x2048x1024_S1x2048x64_0_0_384
abbrev rK7 : Rect S1x2048x1024 := Rect.unit (s := S1x2048x1024) ![0, 0, 448] S1x2048x64.size inb_S1x2048x1024_S1x2048x64_0_0_448
abbrev rK8 : Rect S1x2048x1024 := Rect.unit (s := S1x2048x1024) ![0, 0, 512] S1x2048x64.size inb_S1x2048x1024_S1x2048x64_0_0_512
abbrev rK9 : Rect S1x2048x1024 := Rect.unit (s := S1x2048x1024) ![0, 0, 576] S1x2048x64.size inb_S1x2048x1024_S1x2048x64_0_0_576
abbrev rK10 : Rect S1x2048x1024 := Rect.unit (s := S1x2048x1024) ![0, 0, 640] S1x2048x64.size inb_S1x2048x1024_S1x2048x64_0_0_640
abbrev rK11 : Rect S1x2048x1024 := Rect.unit (s := S1x2048x1024) ![0, 0, 704] S1x2048x64.size inb_S1x2048x1024_S1x2048x64_0_0_704
abbrev rK12 : Rect S1x2048x1024 := Rect.unit (s := S1x2048x1024) ![0, 0, 768] S1x2048x64.size inb_S1x2048x1024_S1x2048x64_0_0_768
abbrev rK13 : Rect S1x2048x1024 := Rect.unit (s := S1x2048x1024) ![0, 0, 832] S1x2048x64.size inb_S1x2048x1024_S1x2048x64_0_0_832
abbrev rK14 : Rect S1x2048x1024 := Rect.unit (s := S1x2048x1024) ![0, 0, 896] S1x2048x64.size inb_S1x2048x1024_S1x2048x64_0_0_896
abbrev rK15 : Rect S1x2048x1024 := Rect.unit (s := S1x2048x1024) ![0, 0, 960] S1x2048x64.size inb_S1x2048x1024_S1x2048x64_0_0_960
abbrev rC0 : Rect S256x1024 := Rect.unit (s := S256x1024) ![0, 0] S256x64.size inb_S256x1024_S256x64_0_0
abbrev rC1 : Rect S256x1024 := Rect.unit (s := S256x1024) ![0, 64] S256x64.size inb_S256x1024_S256x64_0_64
abbrev rC2 : Rect S256x1024 := Rect.unit (s := S256x1024) ![0, 128] S256x64.size inb_S256x1024_S256x64_0_128
abbrev rC3 : Rect S256x1024 := Rect.unit (s := S256x1024) ![0, 192] S256x64.size inb_S256x1024_S256x64_0_192
abbrev rC4 : Rect S256x1024 := Rect.unit (s := S256x1024) ![0, 256] S256x64.size inb_S256x1024_S256x64_0_256
abbrev rC5 : Rect S256x1024 := Rect.unit (s := S256x1024) ![0, 320] S256x64.size inb_S256x1024_S256x64_0_320
abbrev rC6 : Rect S256x1024 := Rect.unit (s := S256x1024) ![0, 384] S256x64.size inb_S256x1024_S256x64_0_384
abbrev rC7 : Rect S256x1024 := Rect.unit (s := S256x1024) ![0, 448] S256x64.size inb_S256x1024_S256x64_0_448
abbrev rC8 : Rect S256x1024 := Rect.unit (s := S256x1024) ![0, 512] S256x64.size inb_S256x1024_S256x64_0_512
abbrev rC9 : Rect S256x1024 := Rect.unit (s := S256x1024) ![0, 576] S256x64.size inb_S256x1024_S256x64_0_576
abbrev rC10 : Rect S256x1024 := Rect.unit (s := S256x1024) ![0, 640] S256x64.size inb_S256x1024_S256x64_0_640
abbrev rC11 : Rect S256x1024 := Rect.unit (s := S256x1024) ![0, 704] S256x64.size inb_S256x1024_S256x64_0_704
abbrev rC12 : Rect S256x1024 := Rect.unit (s := S256x1024) ![0, 768] S256x64.size inb_S256x1024_S256x64_0_768
abbrev rC13 : Rect S256x1024 := Rect.unit (s := S256x1024) ![0, 832] S256x64.size inb_S256x1024_S256x64_0_832
abbrev rC14 : Rect S256x1024 := Rect.unit (s := S256x1024) ![0, 896] S256x64.size inb_S256x1024_S256x64_0_896
abbrev rC15 : Rect S256x1024 := Rect.unit (s := S256x1024) ![0, 960] S256x64.size inb_S256x1024_S256x64_0_960
/-- The whole scratch, weight, bias and output buffers. -/
abbrev rCtx : Rect S256x1024 := Rect.unit (s := S256x1024) ![0, 0] S256x1024.size inb_S256x1024_S256x1024_0_0
abbrev rWo : Rect S1024x1024 := Rect.unit (s := S1024x1024) ![0, 0] S1024x1024.size inb_S1024x1024_S1024x1024_0_0
abbrev rBo : Rect S1x1024 := Rect.unit (s := S1x1024) ![0, 0] S1x1024.size inb_S1x1024_S1x1024_0_0
abbrev rOut : Rect S1x256x1024 := Rect.unit (s := S1x256x1024) ![0, 0, 0] S1x256x1024.size inb_S1x256x1024_S1x256x1024_0_0_0

/-- The sixteen column stores into the scratch, last first: head `h`'s result from its columns of the three blocks. -/
def ctxPieces (x0 : Vec F S1x256x1024 .f32) (x1 x2 : Vec F S1x2048x1024 .f32) : List (View.Piece (Elt F) S256x1024 .f32) :=
  [⟨rC15, k1_pay3 (View.ld x0 rQ15) (View.ld x1 rK15) (View.ld x2 rK15)⟩,
   ⟨rC14, k1_pay3 (View.ld x0 rQ14) (View.ld x1 rK14) (View.ld x2 rK14)⟩,
   ⟨rC13, k1_pay3 (View.ld x0 rQ13) (View.ld x1 rK13) (View.ld x2 rK13)⟩,
   ⟨rC12, k1_pay3 (View.ld x0 rQ12) (View.ld x1 rK12) (View.ld x2 rK12)⟩,
   ⟨rC11, k1_pay3 (View.ld x0 rQ11) (View.ld x1 rK11) (View.ld x2 rK11)⟩,
   ⟨rC10, k1_pay3 (View.ld x0 rQ10) (View.ld x1 rK10) (View.ld x2 rK10)⟩,
   ⟨rC9, k1_pay3 (View.ld x0 rQ9) (View.ld x1 rK9) (View.ld x2 rK9)⟩,
   ⟨rC8, k1_pay3 (View.ld x0 rQ8) (View.ld x1 rK8) (View.ld x2 rK8)⟩,
   ⟨rC7, k1_pay3 (View.ld x0 rQ7) (View.ld x1 rK7) (View.ld x2 rK7)⟩,
   ⟨rC6, k1_pay3 (View.ld x0 rQ6) (View.ld x1 rK6) (View.ld x2 rK6)⟩,
   ⟨rC5, k1_pay3 (View.ld x0 rQ5) (View.ld x1 rK5) (View.ld x2 rK5)⟩,
   ⟨rC4, k1_pay3 (View.ld x0 rQ4) (View.ld x1 rK4) (View.ld x2 rK4)⟩,
   ⟨rC3, k1_pay3 (View.ld x0 rQ3) (View.ld x1 rK3) (View.ld x2 rK3)⟩,
   ⟨rC2, k1_pay3 (View.ld x0 rQ2) (View.ld x1 rK2) (View.ld x2 rK2)⟩,
   ⟨rC1, k1_pay3 (View.ld x0 rQ1) (View.ld x1 rK1) (View.ld x2 rK1)⟩,
   ⟨rC0, k1_pay3 (View.ld x0 rQ0) (View.ld x1 rK0) (View.ld x2 rK0)⟩]

/-- The sixteen column rectangles tile the scratch. -/
theorem ctxCover (x0 : Vec F S1x256x1024 .f32) (x1 x2 : Vec F S1x2048x1024 .f32) (y : S256x1024.Idx) :
    ∃ pc ∈ ctxPieces x0 x1 x2, y ∈ pc.1.set :=
  View.cover_of_tiledL (ctxPieces x0 x1 x2) S256x64.size (by sl_kernel_rfl) y

/-- What the body leaves in the output buffer: (the assembled scratch) · (output weights) + bias. -/
def out1_5 (x0 : Vec F S1x256x1024 .f32) (x1 x2 : Vec F S1x2048x1024 .f32) (x3 : Vec F S1024x1024 .bf16) (x4 : Vec F S1x1024 .f32) :
    Vec F S1x256x1024 .f32 :=
  View.canon [⟨rOut, k1_pay2 (View.ld (View.canon (ctxPieces x0 x1 x2)) rCtx) (View.ld x3 rWo) (View.ld x4 rBo)⟩]

theorem cover1 (p0 : Vec F S1x256x1024 .f32) (y : S1x256x1024.Idx) :
    ∃ pc ∈ ([⟨rOut, p0⟩] : List (View.Piece (Elt F) S1x256x1024 .f32)), y ∈ pc.1.set :=
  View.cover_of_tiled [⟨rOut, p0⟩] S1x256x1024.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

end Regions

/-! # What every buffer holds between the items of the program -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! # The proof data family -/

/-- No region has a prefetched table. -/
abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.KernelIdeal.Run

end
-- ==== Proof.ProjBody.lean ====
/-
  Region 0's body, run: on whole staging buffers, the inputs' at given contents and the outputs' at anything, the fused
  q / k / v projection body loads the input block and the weights, and stores into each of the three outputs, whole,
  its column slice of the product.  Hence the library's body obligation for region 0 at every grid point.
  Every statement here holds at any float instance.
-/
import proofs.«179820_j79611513799233_2_alg».proof.Proof.Blocks

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The body's triple -/

set_option maxHeartbeats 1000000 in
/-- The projection body on whole staging memrefs: the two inputs are read and left as they were; each output, whatever
    it held, ends at the one whole store of its slice of the product. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .f32) (harg5 : arg5.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E
          (cc0__qkv_proj_kernel i arg1 harg1 arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! # The body obligation, at a generic point -/

/-- What the body is called with at point `t`: the invariant, the core's debts, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Run

end
-- ==== Proof.AttnHeads.lean ====
/-
  The sixteen heads of region 1's body compute one function.  The printed body is cut into parts by position, so for
  eight heads the value stored into the scratch is spelled as a composition of payloads that straddle a cut; for the
  other eight it is a payload of its own.  Each is, after unfolding, the first head's payload applied to that head's
  three loaded column blocks (q, k, v): scores q·kᵀ scaled by 1/8, row maximum subtracted, exponentials, their row
  sums, the product with v, and the division.  Every statement holds at any float instance.
-/
import proofs.«179820_j79611513799233_2_alg».proof.Proof.Blocks

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (q : Vec F S1x256x64 .f32) (k v : Vec F S1x2048x64 .f32)

theorem head1_eq : k1_pay7 (k1_pay4 v) (k1_pay5 q k) (k1_pay6 (F := F)) = k1_pay3 q k v := rfl
theorem head2_eq : k1_pay8 q k v = k1_pay3 q k v := rfl
theorem head3_eq : k1_pay9 q k v = k1_pay3 q k v := rfl
theorem head4_eq : k1_pay13 (k1_pay10 v) (k1_pay11 q k) (k1_pay12 q k) = k1_pay3 q k v := rfl
theorem head5_eq : k1_pay14 q k v = k1_pay3 q k v := rfl
theorem head6_eq : k1_pay15 q k v = k1_pay3 q k v := rfl
theorem head7_eq : k1_pay18 (k1_pay16 v) (k1_pay17 q k) = k1_pay3 q k v := rfl
theorem head8_eq : k1_pay19 q k v = k1_pay3 q k v := rfl
theorem head9_eq : k1_pay21 (k1_pay20 q) k v = k1_pay3 q k v := rfl
theorem head10_eq : k1_pay25 (k1_pay22 v) (k1_pay23 q k) (k1_pay24 q k) = k1_pay3 q k v := rfl
theorem head11_eq : k1_pay26 q k v = k1_pay3 q k v := rfl
theorem head12_eq : k1_pay29 (k1_pay27 q) (k1_pay28 k) v = k1_pay3 q k v := rfl
theorem head13_eq : k1_pay33 (k1_pay31 q k) (k1_pay32 q k v) = k1_pay3 q k v := rfl
theorem head14_eq : k1_pay34 q k v = k1_pay3 q k v := rfl
theorem head15_eq : k1_pay1 (k1_pay35 q) (k1_pay36 k) v = k1_pay3 q k v := rfl

end Cert.KernelIdeal.Run

end
-- ==== Proof.AttnBody.lean ====
/-
  Region 1's body, run: on whole staging buffers, the five inputs' at given contents, the output's and the scratch's at
  anything, the fused attention body stores each head's 256 × 64 result into its 64 columns of the scratch, reads the
  scratch back whole, multiplies by the output weights, adds the bias row and stores the result whole into the output.
  The sixteen column stores tile the scratch, so what is read back is one function of the three input blocks; the
  sixteen stored values are one function of each head's three column blocks.  Hence the library's body obligation for
  region 1 at every grid point: the scratch is taken out of the region's invariant for the run and put back after it.
  Every statement here holds at any float instance.
-/
import proofs.«179820_j79611513799233_2_alg».proof.Proof.AttnHeads

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The body's triple -/

set_option maxHeartbeats 4000000 in
/-- The attention body on whole staging memrefs: the five inputs are read and left as they were; the output, whatever it
    held, ends at the one whole store of (assembled scratch) · (output weights) + bias; the scratch ends at some contents. -/
theorem sound_kernel1 (c : Dev nD) (E : Set ℕ) (i : grid1.Coords)
    (arg2 : Memref sig .tc .vmem S1x256x1024 .f32) (harg2 : arg2.IsWhole)
    (arg3 : Memref sig .tc .vmem S1x2048x1024 .f32) (harg3 : arg3.IsWhole)
    (arg4 : Memref sig .tc .vmem S1x2048x1024 .f32) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1x256x1024 .f32) (harg7 : arg7.IsWhole)
    (arg8 : Memref sig .tc .vmem S256x1024 .f32) (harg8 : arg8.IsWhole)
    (x0 : Vec F S1x256x1024 .f32) (x1 x2 : Vec F S1x2048x1024 .f32) (x3 : Vec F S1024x1024 .bf16)
    (x4 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (out1_5 x0 x1 x2 x3 x4)
            ∗ (∃ d, owns (c : Thread nD τ) arg8 fullShare d)) -∗ K ⟨⟩))
      ⊢ wp frame (wpE (defs₀ (F := F)) Variants.none c none) E
          (cc1__fused_attn_kernel i arg2 harg2 arg3 harg3 arg4 harg4 arg5 harg5 arg6 harg6 arg7 harg7 arg8 harg8) K := by
  simp only [cc1__fused_attn_kernel_eq_skeleton]; unfold cc1__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover1 _)]
    unfold out1_5
    sl_unfold_run_names
    rw [View.readCov_eq_canon']
    simp only [head1_eq, head2_eq, head3_eq, head4_eq, head5_eq, head6_eq, head7_eq, head8_eq, head9_eq, head10_eq,
      head11_eq, head12_eq, head13_eq, head14_eq, head15_eq]
    rfl
  iexists _, _; isplitr
  swap; · iexact H6
  ipureintro; rfl

/-! # The scratch inside the region's invariant -/

/-- The scratch operand: a whole scoped buffer of the kernel's own, passed beside the windows. -/
abbrev scM1 : Memref sig .tc .vmem S256x1024 .f32 := Memref.whole cc1_scratch0

/-- The region's invariant, opened: the core's scoped buffers that are no staging buffer of this region, each at some
    contents — the last of them the scratch, as a memref owned at some contents — and the generator register at some
    state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ d, owns (c : Thread nD τ) scM1 fullShare d)) ∗ (∃ r, prngReg c r)) := by
  unfold Pipeline.ΦA; rw [scopedRest1_eq]; simp only [scM1, owns_whole]; try rfl

/-! # The body obligation, at a generic point -/

/-- What the body is called with at point `t`: the invariant, the core's debts, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant lends the
    scratch at whatever it holds and takes it back at whatever the body left; the other scoped buffers, the generator
    register and the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  iintro ⟨⟨⟨R0, R1, R2, R3, R4, R5, R6, R7, R8, HS⟩, Hg⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [R0 R1 R2 R3 R4 R5 R6 R7 R8 HS Hg]
  · isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Run

end
-- ==== Proof.MainRun.lean ====
/-
  The run of the attention program: host stretch, the projection region, host stretch, the attention region.
  From any memory with zero counters every weakly fair execution terminates without a fault, and the final memory holds
  every buffer that no region scopes at the contents the last item leaves: the six argument arrays as launched (no host
  operation writes one and no region stages one as an output), and the result array at what region 1's write-backs leave.
  Holds at any float instance.
-/
import proofs.«179820_j79611513799233_2_alg».proof.Proof.Blocks
import proofs.«179820_j79611513799233_2_alg».proof.Proof.ProjBody
import proofs.«179820_j79611513799233_2_alg».proof.Proof.AttnBody

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

/-- The result array ends at what region 1's write-backs leave in it. -/
theorem W4_main_v13 (c : Dev nD) : W4 m ρ c (Proc.devRef .tc main_v13) = (dat1 (V3 m ρ) c).arrAt 5 cfg1.N :=
  W4_arr m ρ c 5

/-! ## The thread state between items -/

abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with them at
    the contents after it. Its windows' arrays are split out of the unscoped buffers and put back at what the
    write-backs leave; the generator register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its windows' arrays are split out of the unscoped buffers and put back at what the
    write-backs leave; the generator register goes into the invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of the program from memory `m` with zero counters terminates, nothing faulting,
    and every final state holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run m ρ)

/-- The run with the result array named: it ends at what region 1's write-backs leave, the arguments as launched. -/
theorem run_result : θ_run defs (onTc (τ := τ) (main (F := F))) ⟨m, fun _ => 0, ρ⟩ (fun r => ∀ c : Dev nD,
      r.2.mem ((c.tc : Thread nD τ).loc main_v13) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_v13 (by decide))).trans (W4_main_v13 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run m ρ)

end Cert.KernelIdeal.Run

end
-- ==== Proof.KBlocks.lean ====
/-
  The two pipelined regions of the attention program, as data: which block of which array each window holds at a grid
  point, what each region's body leaves in its output buffers as a function of the blocks it was handed, and what every
  buffer of the program holds between the host stretches and the regions.

  Region 0 (8 points, 512 rows each): the body multiplies the 512 × 1024 block of the flattened input by the whole
  1024 × 3072 weight matrix and stores the three 512 × 1024 column slices of the product, each whole, into the q, k and
  v outputs.
  Region 1 (2 × 8 points: batch, 256 query rows): for each of the 16 heads the body takes the head's 64 columns of the
  q block and of the whole k and v blocks of the batch, and stores the head's 256 × 64 result into columns 64·h … 64·h+63
  of a 256 × 1024 scratch; the 16 column stores tile the scratch.  It then reads the scratch whole, multiplies by the
  output weights, adds the bias row and stores the 1 × 256 × 1024 result whole.
  Every statement here holds at any float instance.
-/
import proofs.«179820_j79611513799233_2_alg».proof.Proof.Gen.Kernel.Launch
import proofs.«179820_j79611513799233_2_alg».proof.Proof.Gen.Kernel.Skeleton
import proofs.«179820_j79611513799233_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffer contents a region is entered with: each region's half is stated at this parameter
variable (V : (c : Dev nD) → (b : Ref sig .tc) → Buf (Elt F) ((c : Thread nD τ).loc b))

/-! # Region 0: the fused q / k / v projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 × 1024 buffer and the whole 1024 × 3072 buffer, as rectangles. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0

/-- What the body leaves in the q, k and v output buffers: the three column slices of (input block) · (weights). -/
def out0_2 (x0 : Vec F S512x1024 .f32) (x1 : Vec F S1024x3072 .bf16) : Vec F S512x1024 .f32 :=
  View.canon [⟨rX, k0_pay2 (View.ld x0 rX) (View.ld x1 rW)⟩]
def out0_3 (x0 : Vec F S512x1024 .f32) (x1 : Vec F S1024x3072 .bf16) : Vec F S512x1024 .f32 :=
  View.canon [⟨rX, k0_pay3 (View.ld x0 rX) (View.ld x1 rW)⟩]
def out0_4 (x0 : Vec F S512x1024 .f32) (x1 : Vec F S1024x3072 .bf16) : Vec F S512x1024 .f32 :=
  View.canon [⟨rX, k0_pay4 (View.ld x0 rX) (View.ld x1 rW)⟩]

/-- One whole store covers the buffer. -/
theorem cover0 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-- The proof data of region 0 on core `c`: the arrays as the region finds them; after the body at point `t` each input's
    buffer at its block and each output's at its slice of the product; the scoped rest and the generator register as the
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- An input's current staging buffer holds its block at every point, fetched there or not: an unfetched window's index
    has not moved since the fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! # Region 1: the attention heads and the output projection -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Head `h`'s 64 columns of the q block, of the k / v blocks, and of the scratch. -/
abbrev rQ0 : Rect S1x256x1024 := Rect.unit (s := S1x256x1024) ![0, 0, 0] S1x256x64.size inb_S1x256x1024_S1x256x64_0_0_0
abbrev rQ1 : Rect S1x256x1024 := Rect.unit (s := S1x256x1024) ![0, 0, 64] S1x256x64.size inb_S1x256x1024_S1x256x64_0_0_64
abbrev rQ2 : Rect S1x256x1024 := Rect.unit (s := S1x256x1024) ![0, 0, 128] S1x256x64.size inb_S1x256x1024_S1x256x64_0_0_128
abbrev rQ3 : Rect S1x256x1024 := Rect.unit (s := S1x256x1024) ![0, 0, 192] S1x256x64.size inb_S1x256x1024_S1x256x64_0_0_192
abbrev rQ4 : Rect S1x256x1024 := Rect.unit (s := S1x256x1024) ![0, 0, 256] S1x256x64.size inb_S1x256x1024_S1x256x64_0_0_256
abbrev rQ5 : Rect S1x256x1024 := Rect.unit (s := S1x256x1024) ![0, 0, 320] S1x256x64.size inb_S1x256x1024_S1x256x64_0_0_320
abbrev rQ6 : Rect S1x256x1024 := Rect.unit (s := S1x256x1024) ![0, 0, 384] S1x256x64.size inb_S1x256x1024_S1x256x64_0_0_384
abbrev rQ7 : Rect S1x256x1024 := Rect.unit (s := S1x256x1024) ![0, 0, 448] S1x256x64.size inb_S1x256x1024_S1x256x64_0_0_448
abbrev rQ8 : Rect S1x256x1024 := Rect.unit (s := S1x256x1024) ![0, 0, 512] S1x256x64.size inb_S1x256x1024_S1x256x64_0_0_512
abbrev rQ9 : Rect S1x256x1024 := Rect.unit (s := S1x256x1024) ![0, 0, 576] S1x256x64.size inb_S1x256x1024_S1x256x64_0_0_576
abbrev rQ10 : Rect S1x256x1024 := Rect.unit (s := S1x256x1024) ![0, 0, 640] S1x256x64.size inb_S1x256x1024_S1x256x64_0_0_640
abbrev rQ11 : Rect S1x256x1024 := Rect.unit (s := S1x256x1024) ![0, 0, 704] S1x256x64.size inb_S1x256x1024_S1x256x64_0_0_704
abbrev rQ12 : Rect S1x256x1024 := Rect.unit (s := S1x256x1024) ![0, 0, 768] S1x256x64.size inb_S1x256x1024_S1x256x64_0_0_768
abbrev rQ13 : Rect S1x256x1024 := Rect.unit (s := S1x256x1024) ![0, 0, 832] S1x256x64.size inb_S1x256x1024_S1x256x64_0_0_832
abbrev rQ14 : Rect S1x256x1024 := Rect.unit (s := S1x256x1024) ![0, 0, 896] S1x256x64.size inb_S1x256x1024_S1x256x64_0_0_896
abbrev rQ15 : Rect S1x256x1024 := Rect.unit (s := S1x256x1024) ![0, 0, 960] S1x256x64.size inb_S1x256x1024_S1x256x64_0_0_960
abbrev rK0 : Rect S1x2048x1024 := Rect.unit (s := S1x2048x1024) ![0, 0, 0] S1x2048x64.size inb_S1x2048x1024_S1x2048x64_0_0_0
abbrev rK1 : Rect S1x2048x1024 := Rect.unit (s := S1x2048x1024) ![0, 0, 64] S1x2048x64.size inb_S1x2048x1024_S1x2048x64_0_0_64
abbrev rK2 : Rect S1x2048x1024 := Rect.unit (s := S1x2048x1024) ![0, 0, 128] S1x2048x64.size inb_S1x2048x1024_S1x2048x64_0_0_128
abbrev rK3 : Rect S1x2048x1024 := Rect.unit (s := S1x2048x1024) ![0, 0, 192] S1x2048x64.size inb_S1x2048x1024_S1x2048x64_0_0_192
abbrev rK4 : Rect S1x2048x1024 := Rect.unit (s := S1x2048x1024) ![0, 0, 256] S1x2048x64.size inb_S1x2048x1024_S1x2048x64_0_0_256
abbrev rK5 : Rect S1x2048x1024 := Rect.unit (s := S1x2048x1024) ![0, 0, 320] S1x2048x64.size inb_S1x2048x1024_S1x2048x64_0_0_320
abbrev rK6 : Rect S1x2048x1024 := Rect.unit (s := S1x2048x1024) ![0, 0, 384] S1x2048x64.size inb_S1x2048x1024_S1x2048x64_0_0_384
abbrev rK7 : Rect S1x2048x1024 := Rect.unit (s := S1x2048x1024) ![0, 0, 448] S1x2048x64.size inb_S1x2048x1024_S1x2048x64_0_0_448
abbrev rK8 : Rect S1x2048x1024 := Rect.unit (s := S1x2048x1024) ![0, 0, 512] S1x2048x64.size inb_S1x2048x1024_S1x2048x64_0_0_512
abbrev rK9 : Rect S1x2048x1024 := Rect.unit (s := S1x2048x1024) ![0, 0, 576] S1x2048x64.size inb_S1x2048x1024_S1x2048x64_0_0_576
abbrev rK10 : Rect S1x2048x1024 := Rect.unit (s := S1x2048x1024) ![0, 0, 640] S1x2048x64.size inb_S1x2048x1024_S1x2048x64_0_0_640
abbrev rK11 : Rect S1x2048x1024 := Rect.unit (s := S1x2048x1024) ![0, 0, 704] S1x2048x64.size inb_S1x2048x1024_S1x2048x64_0_0_704
abbrev rK12 : Rect S1x2048x1024 := Rect.unit (s := S1x2048x1024) ![0, 0, 768] S1x2048x64.size inb_S1x2048x1024_S1x2048x64_0_0_768
abbrev rK13 : Rect S1x2048x1024 := Rect.unit (s := S1x2048x1024) ![0, 0, 832] S1x2048x64.size inb_S1x2048x1024_S1x2048x64_0_0_832
abbrev rK14 : Rect S1x2048x1024 := Rect.unit (s := S1x2048x1024) ![0, 0, 896] S1x2048x64.size inb_S1x2048x1024_S1x2048x64_0_0_896
abbrev rK15 : Rect S1x2048x1024 := Rect.unit (s := S1x2048x1024) ![0, 0, 960] S1x2048x64.size inb_S1x2048x1024_S1x2048x64_0_0_960
abbrev rC0 : Rect S256x1024 := Rect.unit (s := S256x1024) ![0, 0] S256x64.size inb_S256x1024_S256x64_0_0
abbrev rC1 : Rect S256x1024 := Rect.unit (s := S256x1024) ![0, 64] S256x64.size inb_S256x1024_S256x64_0_64
abbrev rC2 : Rect S256x1024 := Rect.unit (s := S256x1024) ![0, 128] S256x64.size inb_S256x1024_S256x64_0_128
abbrev rC3 : Rect S256x1024 := Rect.unit (s := S256x1024) ![0, 192] S256x64.size inb_S256x1024_S256x64_0_192
abbrev rC4 : Rect S256x1024 := Rect.unit (s := S256x1024) ![0, 256] S256x64.size inb_S256x1024_S256x64_0_256
abbrev rC5 : Rect S256x1024 := Rect.unit (s := S256x1024) ![0, 320] S256x64.size inb_S256x1024_S256x64_0_320
abbrev rC6 : Rect S256x1024 := Rect.unit (s := S256x1024) ![0, 384] S256x64.size inb_S256x1024_S256x64_0_384
abbrev rC7 : Rect S256x1024 := Rect.unit (s := S256x1024) ![0, 448] S256x64.size inb_S256x1024_S256x64_0_448
abbrev rC8 : Rect S256x1024 := Rect.unit (s := S256x1024) ![0, 512] S256x64.size inb_S256x1024_S256x64_0_512
abbrev rC9 : Rect S256x1024 := Rect.unit (s := S256x1024) ![0, 576] S256x64.size inb_S256x1024_S256x64_0_576
abbrev rC10 : Rect S256x1024 := Rect.unit (s := S256x1024) ![0, 640] S256x64.size inb_S256x1024_S256x64_0_640
abbrev rC11 : Rect S256x1024 := Rect.unit (s := S256x1024) ![0, 704] S256x64.size inb_S256x1024_S256x64_0_704
abbrev rC12 : Rect S256x1024 := Rect.unit (s := S256x1024) ![0, 768] S256x64.size inb_S256x1024_S256x64_0_768
abbrev rC13 : Rect S256x1024 := Rect.unit (s := S256x1024) ![0, 832] S256x64.size inb_S256x1024_S256x64_0_832
abbrev rC14 : Rect S256x1024 := Rect.unit (s := S256x1024) ![0, 896] S256x64.size inb_S256x1024_S256x64_0_896
abbrev rC15 : Rect S256x1024 := Rect.unit (s := S256x1024) ![0, 960] S256x64.size inb_S256x1024_S256x64_0_960
/-- The whole scratch, weight, bias and output buffers. -/
abbrev rCtx : Rect S256x1024 := Rect.unit (s := S256x1024) ![0, 0] S256x1024.size inb_S256x1024_S256x1024_0_0
abbrev rWo : Rect S1024x1024 := Rect.unit (s := S1024x1024) ![0, 0] S1024x1024.size inb_S1024x1024_S1024x1024_0_0
abbrev rBo : Rect S1x1024 := Rect.unit (s := S1x1024) ![0, 0] S1x1024.size inb_S1x1024_S1x1024_0_0
abbrev rOut : Rect S1x256x1024 := Rect.unit (s := S1x256x1024) ![0, 0, 0] S1x256x1024.size inb_S1x256x1024_S1x256x1024_0_0_0

/-- The sixteen column stores into the scratch, last first: head `h`'s result from its columns of the three blocks. -/
def ctxPieces (x0 : Vec F S1x256x1024 .f32) (x1 x2 : Vec F S1x2048x1024 .f32) : List (View.Piece (Elt F) S256x1024 .f32) :=
  [⟨rC15, k1_pay3 (View.ld x0 rQ15) (View.ld x1 rK15) (View.ld x2 rK15)⟩,
   ⟨rC14, k1_pay3 (View.ld x0 rQ14) (View.ld x1 rK14) (View.ld x2 rK14)⟩,
   ⟨rC13, k1_pay3 (View.ld x0 rQ13) (View.ld x1 rK13) (View.ld x2 rK13)⟩,
   ⟨rC12, k1_pay3 (View.ld x0 rQ12) (View.ld x1 rK12) (View.ld x2 rK12)⟩,
   ⟨rC11, k1_pay3 (View.ld x0 rQ11) (View.ld x1 rK11) (View.ld x2 rK11)⟩,
   ⟨rC10, k1_pay3 (View.ld x0 rQ10) (View.ld x1 rK10) (View.ld x2 rK10)⟩,
   ⟨rC9, k1_pay3 (View.ld x0 rQ9) (View.ld x1 rK9) (View.ld x2 rK9)⟩,
   ⟨rC8, k1_pay3 (View.ld x0 rQ8) (View.ld x1 rK8) (View.ld x2 rK8)⟩,
   ⟨rC7, k1_pay3 (View.ld x0 rQ7) (View.ld x1 rK7) (View.ld x2 rK7)⟩,
   ⟨rC6, k1_pay3 (View.ld x0 rQ6) (View.ld x1 rK6) (View.ld x2 rK6)⟩,
   ⟨rC5, k1_pay3 (View.ld x0 rQ5) (View.ld x1 rK5) (View.ld x2 rK5)⟩,
   ⟨rC4, k1_pay3 (View.ld x0 rQ4) (View.ld x1 rK4) (View.ld x2 rK4)⟩,
   ⟨rC3, k1_pay3 (View.ld x0 rQ3) (View.ld x1 rK3) (View.ld x2 rK3)⟩,
   ⟨rC2, k1_pay3 (View.ld x0 rQ2) (View.ld x1 rK2) (View.ld x2 rK2)⟩,
   ⟨rC1, k1_pay3 (View.ld x0 rQ1) (View.ld x1 rK1) (View.ld x2 rK1)⟩,
   ⟨rC0, k1_pay3 (View.ld x0 rQ0) (View.ld x1 rK0) (View.ld x2 rK0)⟩]

/-- The sixteen column rectangles tile the scratch. -/
theorem ctxCover (x0 : Vec F S1x256x1024 .f32) (x1 x2 : Vec F S1x2048x1024 .f32) (y : S256x1024.Idx) :
    ∃ pc ∈ ctxPieces x0 x1 x2, y ∈ pc.1.set :=
  View.cover_of_tiledL (ctxPieces x0 x1 x2) S256x64.size (by sl_kernel_rfl) y

/-- What the body leaves in the output buffer: (the assembled scratch) · (output weights) + bias. -/
def out1_5 (x0 : Vec F S1x256x1024 .f32) (x1 x2 : Vec F S1x2048x1024 .f32) (x3 : Vec F S1024x1024 .bf16) (x4 : Vec F S1x1024 .f32) :
    Vec F S1x256x1024 .f32 :=
  View.canon [⟨rOut, k1_pay2 (View.ld (View.canon (ctxPieces x0 x1 x2)) rCtx) (View.ld x3 rWo) (View.ld x4 rBo)⟩]

theorem cover1 (p0 : Vec F S1x256x1024 .f32) (y : S1x256x1024.Idx) :
    ∃ pc ∈ ([⟨rOut, p0⟩] : List (View.Piece (Elt F) S1x256x1024 .f32)), y ∈ pc.1.set :=
  View.cover_of_tiled [⟨rOut, p0⟩] S1x256x1024.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

end Regions

/-! # What every buffer holds between the items of the program -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! # The proof data family -/

/-- No region has a prefetched table. -/
abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.Kernel.Run

end
-- ==== Proof.KProjBody.lean ====
/-
  Region 0's body, run: on whole staging buffers, the inputs' at given contents and the outputs' at anything, the fused
  q / k / v projection body loads the input block and the weights, and stores into each of the three outputs, whole,
  its column slice of the product.  Hence the library's body obligation for region 0 at every grid point.
  Every statement here holds at any float instance.
-/
import proofs.«179820_j79611513799233_2_alg».proof.Proof.KBlocks

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The body's triple -/

set_option maxHeartbeats 1000000 in
/-- The projection body on whole staging memrefs: the two inputs are read and left as they were; each output, whatever
    it held, ends at the one whole store of its slice of the product. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .f32) (harg5 : arg5.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E
          (cc0__qkv_proj_kernel i arg1 harg1 arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! # The body obligation, at a generic point -/

/-- What the body is called with at point `t`: the invariant, the core's debts, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Run

end
-- ==== Proof.KAttnHeads.lean ====
/-
  The sixteen heads of region 1's body compute one function.  The printed body is cut into parts by position, so for
  eight heads the value stored into the scratch is spelled as a composition of payloads that straddle a cut; for the
  other eight it is a payload of its own.  Each is, after unfolding, the first head's payload applied to that head's
  three loaded column blocks (q, k, v): scores q·kᵀ scaled by 1/8, row maximum subtracted, exponentials, their row
  sums, the product with v, and the division.  Every statement holds at any float instance.
-/
import proofs.«179820_j79611513799233_2_alg».proof.Proof.KBlocks

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (q : Vec F S1x256x64 .f32) (k v : Vec F S1x2048x64 .f32)

theorem head1_eq : k1_pay7 (k1_pay4 v) (k1_pay5 q k) (k1_pay6 (F := F)) = k1_pay3 q k v := rfl
theorem head2_eq : k1_pay8 q k v = k1_pay3 q k v := rfl
theorem head3_eq : k1_pay9 q k v = k1_pay3 q k v := rfl
theorem head4_eq : k1_pay13 (k1_pay10 v) (k1_pay11 q k) (k1_pay12 q k) = k1_pay3 q k v := rfl
theorem head5_eq : k1_pay14 q k v = k1_pay3 q k v := rfl
theorem head6_eq : k1_pay15 q k v = k1_pay3 q k v := rfl
theorem head7_eq : k1_pay18 (k1_pay16 v) (k1_pay17 q k) = k1_pay3 q k v := rfl
theorem head8_eq : k1_pay19 q k v = k1_pay3 q k v := rfl
theorem head9_eq : k1_pay21 (k1_pay20 q) k v = k1_pay3 q k v := rfl
theorem head10_eq : k1_pay25 (k1_pay22 v) (k1_pay23 q k) (k1_pay24 q k) = k1_pay3 q k v := rfl
theorem head11_eq : k1_pay26 q k v = k1_pay3 q k v := rfl
theorem head12_eq : k1_pay29 (k1_pay27 q) (k1_pay28 k) v = k1_pay3 q k v := rfl
theorem head13_eq : k1_pay33 (k1_pay31 q k) (k1_pay32 q k v) = k1_pay3 q k v := rfl
theorem head14_eq : k1_pay34 q k v = k1_pay3 q k v := rfl
theorem head15_eq : k1_pay1 (k1_pay35 q) (k1_pay36 k) v = k1_pay3 q k v := rfl

end Cert.Kernel.Run

end
-- ==== Proof.KAttnBody.lean ====
/-
  Region 1's body, run: on whole staging buffers, the five inputs' at given contents, the output's and the scratch's at
  anything, the fused attention body stores each head's 256 × 64 result into its 64 columns of the scratch, reads the
  scratch back whole, multiplies by the output weights, adds the bias row and stores the result whole into the output.
  The sixteen column stores tile the scratch, so what is read back is one function of the three input blocks; the
  sixteen stored values are one function of each head's three column blocks.  Hence the library's body obligation for
  region 1 at every grid point: the scratch is taken out of the region's invariant for the run and put back after it.
  Every statement here holds at any float instance.
-/
import proofs.«179820_j79611513799233_2_alg».proof.Proof.KAttnHeads

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The body's triple -/

set_option maxHeartbeats 4000000 in
/-- The attention body on whole staging memrefs: the five inputs are read and left as they were; the output, whatever it
    held, ends at the one whole store of (assembled scratch) · (output weights) + bias; the scratch ends at some contents. -/
theorem sound_kernel1 (c : Dev nD) (E : Set ℕ) (i : grid1.Coords)
    (arg2 : Memref sig .tc .vmem S1x256x1024 .f32) (harg2 : arg2.IsWhole)
    (arg3 : Memref sig .tc .vmem S1x2048x1024 .f32) (harg3 : arg3.IsWhole)
    (arg4 : Memref sig .tc .vmem S1x2048x1024 .f32) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1x256x1024 .f32) (harg7 : arg7.IsWhole)
    (arg8 : Memref sig .tc .vmem S256x1024 .f32) (harg8 : arg8.IsWhole)
    (x0 : Vec F S1x256x1024 .f32) (x1 x2 : Vec F S1x2048x1024 .f32) (x3 : Vec F S1024x1024 .bf16)
    (x4 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (out1_5 x0 x1 x2 x3 x4)
            ∗ (∃ d, owns (c : Thread nD τ) arg8 fullShare d)) -∗ K ⟨⟩))
      ⊢ wp frame (wpE (defs₀ (F := F)) Variants.none c none) E
          (cc1__fused_attn_kernel i arg2 harg2 arg3 harg3 arg4 harg4 arg5 harg5 arg6 harg6 arg7 harg7 arg8 harg8) K := by
  simp only [cc1__fused_attn_kernel_eq_skeleton]; unfold cc1__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover1 _)]
    unfold out1_5
    sl_unfold_run_names
    rw [View.readCov_eq_canon']
    simp only [head1_eq, head2_eq, head3_eq, head4_eq, head5_eq, head6_eq, head7_eq, head8_eq, head9_eq, head10_eq,
      head11_eq, head12_eq, head13_eq, head14_eq, head15_eq]
    rfl
  iexists _, _; isplitr
  swap; · iexact H6
  ipureintro; rfl

/-! # The scratch inside the region's invariant -/

/-- The scratch operand: a whole scoped buffer of the kernel's own, passed beside the windows. -/
abbrev scM1 : Memref sig .tc .vmem S256x1024 .f32 := Memref.whole cc1_scratch0

/-- The region's invariant, opened: the core's scoped buffers that are no staging buffer of this region, each at some
    contents — the last of them the scratch, as a memref owned at some contents — and the generator register at some
    state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ d, owns (c : Thread nD τ) scM1 fullShare d)) ∗ (∃ r, prngReg c r)) := by
  unfold Pipeline.ΦA; rw [scopedRest1_eq]; simp only [scM1, owns_whole]; try rfl

/-! # The body obligation, at a generic point -/

/-- What the body is called with at point `t`: the invariant, the core's debts, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant lends the
    scratch at whatever it holds and takes it back at whatever the body left; the other scoped buffers, the generator
    register and the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  iintro ⟨⟨⟨R0, R1, R2, R3, R4, R5, R6, R7, R8, HS⟩, Hg⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [R0 R1 R2 R3 R4 R5 R6 R7 R8 HS Hg]
  · isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Run

end
-- ==== Proof.KMainRun.lean ====
/-
  The run of the attention program: host stretch, the projection region, host stretch, the attention region.
  From any memory with zero counters every weakly fair execution terminates without a fault, and the final memory holds
  every buffer that no region scopes at the contents the last item leaves: the six argument arrays as launched (no host
  operation writes one and no region stages one as an output), and the result array at what region 1's write-backs leave.
  Holds at any float instance.
-/
import proofs.«179820_j79611513799233_2_alg».proof.Proof.KBlocks
import proofs.«179820_j79611513799233_2_alg».proof.Proof.KProjBody
import proofs.«179820_j79611513799233_2_alg».proof.Proof.KAttnBody

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

/-- The result array ends at what region 1's write-backs leave in it. -/
theorem W4_main_v13 (c : Dev nD) : W4 m ρ c (Proc.devRef .tc main_v13) = (dat1 (V3 m ρ) c).arrAt 5 cfg1.N :=
  W4_arr m ρ c 5

/-! ## The thread state between items -/

abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with them at
    the contents after it. Its windows' arrays are split out of the unscoped buffers and put back at what the
    write-backs leave; the generator register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its windows' arrays are split out of the unscoped buffers and put back at what the
    write-backs leave; the generator register goes into the invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of the program from memory `m` with zero counters terminates, nothing faulting,
    and every final state holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run m ρ)

/-- The run with the result array named: it ends at what region 1's write-backs leave, the arguments as launched. -/
theorem run_result : θ_run defs (onTc (τ := τ) (main (F := F))) ⟨m, fun _ => 0, ρ⟩ (fun r => ∀ c : Dev nD,
      r.2.mem ((c.tc : Thread nD τ).loc main_v13) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_v13 (by decide))).trans (W4_main_v13 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run m ρ)

end Cert.Kernel.Run

end
-- ==== Proof.Entries.lean ====
/-
  Readers by coordinates for the two flattened shapes of the kernel program: an array [4096, 1024] (the 2 × 2048
  positions laid in rows) and the weight matrix [1024, 3072] of the three transposed projections side by side.
-/
import proofs.«179820_j79611513799233_2_alg».proof.Proof.Spec

noncomputable section

namespace Cert.MHA

open Idealize.ShloMosaic Idealize.ShloMosaic.ValueIdx

/-- An array [4096, 1024] given on indices, by coordinates. -/
abbrev flat2 (X : (⟨2, ![4096, 1024]⟩ : Shape).Idx → EReal) : Fin 4096 → Fin 1024 → EReal := fun r d => X (ix2 r d)
/-- A matrix [1024, 3072] given on indices, by coordinates. -/
abbrev wide2 (X : (⟨2, ![1024, 3072]⟩ : Shape).Idx → EReal) : Fin 1024 → Fin 3072 → EReal := fun d e => X (ix2 d e)

end Cert.MHA

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.HeadValue.lean ====
/-
  The three kernels' arithmetic read at one entry, over the extended reals.

  One attention head: from a block of 256 query rows and the head's 2048 key and value rows (64 features each) the
  scores are the dot products of a query row with every key row, scaled by a constant; each row's weights are the
  exponentials of the scores less the row's maximum; the result is the weighted sum of the value rows divided by the
  row's total weight. The output projection is a matrix product with a bias row added, and the fused projection
  is one product against a matrix of 3072 columns cut into three slices of 1024.
-/
import proofs.«179820_j79611513799233_2_alg».proof.Proof.Spec
import proofs.«179820_j79611513799233_2_alg».proof.Proof.Gen.KernelIdeal.Skeleton
import proofs.«179820_j79611513799233_2_alg».proof.Proof.LibKeepdims
import proofs.«179820_j79611513799233_2_alg».proof.Proof.LibDotRead
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HeadValue

open Cert.KernelIdeal Cert.KernelIdeal.Gen Idealize.ShloMosaic Idealize.ShloMosaic.ValueIdx

/-! ## The pieces of one head, each read at an entry -/

/-- Scores: entry (r, t) of the query block times the transposed key block is the dot product of query row r and key row t. -/
theorem scores_apply (q : FVec Ideal S256x64 .f32) (k : FVec Ideal S2048x64 .f32) (r : Fin 256) (t : Fin 2048) :
    matmul dot_S256x64_S2048x64_S256x2048_1_1_0_0_n_n (some .fp32) q k (constant (F := Ideal) S256x2048 .f32 0x00000000#32) (ix2 r t)
      = ∑ jj : Fin 64, q (ix2 r jj) * k (ix2 t jj) :=
  DotRead.matmul_transposedRhs_zero_apply 256 64 2048 (some .fp32) q k r t

/-- Weighted sum: entry (r, j) of the weights times the value block is the sum over key positions. -/
theorem wsum_apply (p : FVec Ideal S256x2048 .f32) (v : FVec Ideal S2048x64 .f32) (r : Fin 256) (j : Fin 64) :
    matmul dot_S256x2048_S2048x64_S256x64_1_0_0_1_n_n (some .fp32) p v (constant (F := Ideal) S256x64 .f32 0x00000000#32) (ix2 r j)
      = ∑ t : Fin 2048, p (ix2 r t) * v (ix2 t j) :=
  DotRead.matmul_plain_zero_apply 256 2048 64 (some .fp32) p v r j

/-- The index a lane reduction of row r reads at lane t. -/
theorem lift_eq (r : Fin 256) (t : Fin 2048) :
    (reduces_S256x2048_S256 : S256x2048.Reduces [1] S256).lift (ix1 r) t = ix2 r t :=
  funext fun a => Fin.ext (by match a with | ⟨0, _⟩ => rfl | ⟨1, _⟩ => rfl)

/-- A row's maximum over its 2048 lanes, started from the accumulator's value. -/
theorem rowmax_apply (z : FVec Ideal S256x2048 .f32) (r : Fin 256) :
    multiReduction (F := Ideal) .maximumf [1] S256 z 0xFF800000#32 reduces_S256x2048_S256 (.inl rfl) rfl (ix1 r)
      = (Finset.univ : Finset (Fin 2048)).fold max Cert.MHA.cNegInf (fun t => z (ix2 r t)) := by
  refine (Ideal.multiReduction_maximumf_single z 0xFF800000#32 reduces_S256x2048_S256 (.inl rfl) rfl (ix1 r)).trans ?_
  refine congrArg (fun f => (Finset.univ : Finset (Fin 2048)).fold max Cert.MHA.cNegInf f) ?_
  exact funext fun t => congrArg z (lift_eq r t)

/-- A row's sum over its 2048 lanes. -/
theorem rowsum_apply (z : FVec Ideal S256x2048 .f32) (r : Fin 256) :
    multiReduction (F := Ideal) .add [1] S256 z 0x00000000#32 reduces_S256x2048_S256 (.inl rfl) rfl (ix1 r)
      = ∑ t : Fin 2048, z (ix2 r t) := by
  refine (Ideal.multiReduction_add_single z 0x00000000#32 reduces_S256x2048_S256 (.inl rfl) rfl (ix1 r)).trans ?_
  exact Finset.sum_congr rfl fun t _ => congrArg z (lift_eq r t)

/-! ## One head from its three blocks -/

/-- The scores of a query block against a key block, scaled by the constant the kernel multiplies by. -/
def scaled (q : FVec Ideal S256x64 .f32) (k : FVec Ideal S2048x64 .f32) : FVec Ideal S256x2048 .f32 :=
  mulf (matmul dot_S256x64_S2048x64_S256x2048_1_1_0_0_n_n (some .fp32) q k (constant (F := Ideal) S256x2048 .f32 0x00000000#32))
    (broadcast S256x2048 (Scalar.ofBits (F := Ideal) .f32 0x3E000000#32))

theorem scaled_apply (q : FVec Ideal S256x64 .f32) (k : FVec Ideal S2048x64 .f32) (r : Fin 256) (t : Fin 2048) :
    scaled q k (ix2 r t) = (∑ jj : Fin 64, q (ix2 r jj) * k (ix2 t jj)) * Cert.MHA.cEighth :=
  congrArg (· * Cert.MHA.cEighth) (scores_apply q k r t)

/-- The weights of a block of scores: each row's exponentials of the entries less the row's maximum. -/
def weights (z : FVec Ideal S256x2048 .f32) : FVec Ideal S256x2048 .f32 :=
  exp (subf z (broadcastTo S256x2048
    (shapeCast S256x1 (multiReduction (F := Ideal) .maximumf [1] S256 z 0xFF800000#32 reduces_S256x2048_S256 (.inl rfl) rfl) shapeCasts_S256_S256x1)
    broadcasts_S256x1_S256x2048))

theorem weights_apply (z : FVec Ideal S256x2048 .f32) (r : Fin 256) (t : Fin 2048) :
    weights z (ix2 r t)
      = Ideal.exp (z (ix2 r t) - (Finset.univ : Finset (Fin 2048)).fold max Cert.MHA.cNegInf (fun t' => z (ix2 r t'))) := by
  refine congrArg (fun m => Ideal.exp (z (ix2 r t) - m)) ?_
  refine (KeepdimsLayout.broadcastTo_a1_ab_apply _ broadcasts_S256x1_S256x2048 r t).trans ?_
  refine (KeepdimsLayout.shapeCast_a_a1_apply _ shapeCasts_S256_S256x1 r 0).trans ?_
  exact rowmax_apply z r

/-- One head from a query block and the head's key and value blocks: the weighted sums of the value rows, each row
    divided by its total weight. -/
def attend (q : FVec Ideal S256x64 .f32) (k v : FVec Ideal S2048x64 .f32) : FVec Ideal S256x64 .f32 :=
  divf (matmul dot_S256x2048_S2048x64_S256x64_1_0_0_1_n_n (some .fp32) (weights (scaled q k)) v (constant (F := Ideal) S256x64 .f32 0x00000000#32))
    (broadcastTo S256x64
      (shapeCast S256x1 (multiReduction (F := Ideal) .add [1] S256 (weights (scaled q k)) 0x00000000#32 reduces_S256x2048_S256 (.inl rfl) rfl) shapeCasts_S256_S256x1)
      broadcasts_S256x1_S256x64)

theorem attend_apply (q : FVec Ideal S256x64 .f32) (k v : FVec Ideal S2048x64 .f32) (r : Fin 256) (j : Fin 64) :
    attend q k v (ix2 r j)
      = Ideal.div (∑ t : Fin 2048, weights (scaled q k) (ix2 r t) * v (ix2 t j)) (∑ t : Fin 2048, weights (scaled q k) (ix2 r t)) := by
  refine congrArg₂ Ideal.div (wsum_apply _ v r j) ?_
  refine (KeepdimsLayout.broadcastTo_a1_ab_apply _ broadcasts_S256x1_S256x64 r j).trans ?_
  refine (KeepdimsLayout.shapeCast_a_a1_apply _ shapeCasts_S256_S256x1 r 0).trans ?_
  exact rowsum_apply _ r

/-- The head's payload is that function of the three loads with their unit axis dropped. -/
theorem pay3_eq (v0 : Vec Ideal S1x256x64 .f32) (v2 v4 : Vec Ideal S1x2048x64 .f32) :
    k1_pay3 (F := Ideal) v0 v2 v4
      = attend (shapeCast S256x64 v0 shapeCasts_S1x256x64_S256x64) (shapeCast S2048x64 v2 shapeCasts_S1x2048x64_S2048x64)
          (shapeCast S2048x64 v4 shapeCasts_S1x2048x64_S2048x64) := by
  unfold k1_pay3
  exact shapeCast_self _ _

/-- One attention head read at an entry. -/
theorem head_apply (v0 : Vec Ideal S1x256x64 .f32) (v2 v4 : Vec Ideal S1x2048x64 .f32) (r : Fin 256) (j : Fin 64) :
    k1_pay3 (F := Ideal) v0 v2 v4 (ix2 r j)
      = Ideal.div (∑ t : Fin 2048, Ideal.exp ((∑ jj : Fin 64, v0 (ix3 0 r jj) * v2 (ix3 0 t jj)) * Cert.MHA.cEighth
                      - (Finset.univ : Finset (Fin 2048)).fold max Cert.MHA.cNegInf (fun t' => (∑ jj : Fin 64, v0 (ix3 0 r jj) * v2 (ix3 0 t' jj)) * Cert.MHA.cEighth)) * v4 (ix3 0 t j))
                  (∑ t : Fin 2048, Ideal.exp ((∑ jj : Fin 64, v0 (ix3 0 r jj) * v2 (ix3 0 t jj)) * Cert.MHA.cEighth
                      - (Finset.univ : Finset (Fin 2048)).fold max Cert.MHA.cNegInf (fun t' => (∑ jj : Fin 64, v0 (ix3 0 r jj) * v2 (ix3 0 t' jj)) * Cert.MHA.cEighth))) := by
  have hq : ∀ (a : Fin 256) (b : Fin 64), shapeCast S256x64 v0 shapeCasts_S1x256x64_S256x64 (ix2 a b) = v0 (ix3 0 a b) :=
    fun a b => shapeCast_1ab_ab_apply v0 _ a b
  have hk : ∀ (a : Fin 2048) (b : Fin 64), shapeCast S2048x64 v2 shapeCasts_S1x2048x64_S2048x64 (ix2 a b) = v2 (ix3 0 a b) :=
    fun a b => shapeCast_1ab_ab_apply v2 _ a b
  have hv : ∀ (a : Fin 2048) (b : Fin 64), shapeCast S2048x64 v4 shapeCasts_S1x2048x64_S2048x64 (ix2 a b) = v4 (ix3 0 a b) :=
    fun a b => shapeCast_1ab_ab_apply v4 _ a b
  rw [pay3_eq, attend_apply]
  simp only [weights_apply, scaled_apply, hq, hk, hv]

/-! ## The output projection and bias -/

/-- The output projection read at an entry: row r of the assembled context against column e of the weight block,
    plus the bias at e. The context's change of format and the two identity casts are the identity on values. -/
theorem outproj_apply (ctx : Vec Ideal S256x1024 .f32) (wo : Vec Ideal S1024x1024 .bf16) (bo : Vec Ideal S1x1024 .f32)
    (r : Fin 256) (e : Fin 1024) :
    k1_pay2 (F := Ideal) ctx wo bo (ix3 0 r e) = (∑ d : Fin 1024, ctx (ix2 r d) * wo (ix2 d e)) + bo (ix2 0 e) := by
  unfold k1_pay2
  refine (shapeCast_ab_1ab_apply _ shapeCasts_S256x1024_S1x256x1024 0 r e).trans ?_
  refine congrArg₂ (· + ·) ?_ ?_
  · refine (DotRead.matmul_plain_zero_apply 256 1024 1024 none _ _ r e).trans ?_
    refine Finset.sum_congr rfl fun d _ => ?_
    exact congrArg (fun w => ctx (ix2 r d) * w) (congrFun (shapeCast_self wo _) (ix2 d e))
  · refine (broadcastTo_1b_ab_apply _ broadcasts_S1x1024_S256x1024 r e).trans ?_
    exact congrFun (shapeCast_self bo _) (ix2 0 e)

end Cert.KernelIdeal.HeadValue

end
-- ==== Proof.AttnValue.lean ====
/-
  What the fused attention region leaves in its output array, index by index.

  At a grid point (batch, query tile) the body computes, for each of the 16 heads, the softmax-weighted sum of the head's
  64 columns of `v` from the head's columns of the query tile and of the whole `k` and `v` blocks, and stores it into
  the head's columns of a 256 × 1024 scratch; the scratch, read whole, is multiplied by the output weights and the bias
  row is added.  The sixteen column stores are the tiles of ONE function of the scratch index; the output block is
  therefore the output projection of that function, and, each block being read off its array at the block's offset,
  block `t` of one function of the array index.  The blocks tile the array.
-/
import proofs.«179820_j79611513799233_2_alg».proof.Proof.Spec
import proofs.«179820_j79611513799233_2_alg».proof.Proof.Blocks
import proofs.«179820_j79611513799233_2_alg».proof.Proof.HeadValue
import Idealize.ShloMosaic.Lib.Pipeline.Value
import Idealize.ShloMosaic.Lib.ValueIdx

noncomputable section

open scoped BigOperators

namespace Cert.KernelIdeal.RunValue

open Cert.KernelIdeal Cert.KernelIdeal.Gen Cert.KernelIdeal.Run Cert.MHA Idealize.ShloMosaic Idealize.ShloMosaic.ValueIdx Idealize.SL.Sem
open Idealize.ShloMosaic.Pipeline (Dat)
open Idealize.ShloMosaic.TcCoe

/-! ## One head, by coordinates -/

/-- The context of head `h` at query row `r` and lane `j`, from a query tile `qb` and key and value blocks `kb`, `vb`
    given by (row, column): the scores scaled by 1/8, the row maximum from −∞, the exponentials, their sum with `vb`
    over the key position, divided by their total. -/
def hd (qb : Fin 256 → Fin 1024 → EReal) (kb vb : Fin 2048 → Fin 1024 → EReal) (r : Fin 256) (h : Fin 16) (j : Fin 64) : EReal :=
  Ideal.div (∑ t : Fin 2048, Ideal.exp ((∑ jj : Fin 64, qb r (hcol h jj) * kb t (hcol h jj)) * cEighth
                - (Finset.univ : Finset (Fin 2048)).fold max cNegInf (fun t' => (∑ jj : Fin 64, qb r (hcol h jj) * kb t' (hcol h jj)) * cEighth)) * vb t (hcol h j))
            (∑ t : Fin 2048, Ideal.exp ((∑ jj : Fin 64, qb r (hcol h jj) * kb t (hcol h jj)) * cEighth
                - (Finset.univ : Finset (Fin 2048)).fold max cNegInf (fun t' => (∑ jj : Fin 64, qb r (hcol h jj) * kb t' (hcol h jj)) * cEighth)))

/-- When the tile's row `r` is row `s` of batch `b` of `q`, and the blocks are batch `b` of `k` and `v`, that is `ctxScaled`. -/
theorem hd_eq (Qa Ka Va : Arr3) (b : Fin 2) (s : Fin 2048) (qb : Fin 256 → Fin 1024 → EReal) (kb vb : Fin 2048 → Fin 1024 → EReal)
    (r : Fin 256) (hq : ∀ d, qb r d = Qa b s d) (hk : ∀ t d, kb t d = Ka b t d) (hv : ∀ t d, vb t d = Va b t d)
    (h : Fin 16) (j : Fin 64) :
    hd qb kb vb r h j = ctxScaled cEighth cNegInf Qa Ka Va b s h j := by
  unfold hd ctxScaled score
  simp only [hq, hk, hv]

/-- The scratch as ONE function of its index, from the three blocks: at (r, d) the context of head `d / 64`, lane `d % 64`. -/
def Gctx (x0 : Vec Ideal S1x256x1024 .f32) (x1 x2 : Vec Ideal S1x2048x1024 .f32) : S256x1024.Idx → EReal := fun y =>
  hd (fun r d => x0 (ix3 0 r d)) (fun t d => x1 (ix3 0 t d)) (fun t d => x2 (ix3 0 t d))
    (⟨(y 0).val, (y 0).isLt⟩ : Fin 256) (headOf (⟨(y 1).val, (y 1).isLt⟩ : Fin 1024)) (laneOf (⟨(y 1).val, (y 1).isLt⟩ : Fin 1024))

/-- A block [1, n, 1024] read through the 64 columns from `off`: local (0, r, jj) is (0, r, off + jj). -/
theorem ld_cols {n : Nat} (X : (⟨3, ![1, n, 1024]⟩ : Shape).Idx → Elt Ideal .f32) (off : Nat)
    (inb : ∀ a, (![0, 0, off] : Fin 3 → Nat) a + (![1, n, 64] : Fin 3 → Nat) a ≤ (⟨3, ![1, n, 1024]⟩ : Shape).size a)
    (hle : off + 64 ≤ 1024) (r : Fin n) (jj : Fin 64) :
    View.ld (Val := Elt Ideal) (e' := .f32) X (Rect.unit (s := (⟨3, ![1, n, 1024]⟩ : Shape)) ![0, 0, off] ![1, n, 64] inb) (ix3 (0 : Fin 1) r jj)
      = X (ix3 (0 : Fin 1) r (⟨off + jj.val, by have := jj.isLt; omega⟩ : Fin 1024)) := by
  show X _ = X _
  refine congrArg X (funext fun a => Fin.ext ?_)
  match a with
  | ⟨0, _⟩ => show 0 + 1 * 0 = 0; omega
  | ⟨1, _⟩ => show 0 + 1 * r.val = r.val; omega
  | ⟨2, _⟩ => show off + 1 * jj.val = off + jj.val; omega

theorem Gctx_apply (x0 : Vec Ideal S1x256x1024 .f32) (x1 x2 : Vec Ideal S1x2048x1024 .f32) (r : Fin 256) (d : Fin 1024) :
    Gctx x0 x1 x2 (ix2 r d)
      = hd (fun r d => x0 (ix3 0 r d)) (fun t d => x1 (ix3 0 t d)) (fun t d => x2 (ix3 0 t d)) r (headOf d) (laneOf d) := rfl

/-- One column store's payload is the tile of the scratch function that its rectangle names: for a column offset `off`,
    a multiple of 64, the head computed from columns `off … off + 63` of the three blocks, at local (r, j), is the
    scratch function at (r, off + j). -/
theorem piece_eq (x0 : Vec Ideal S1x256x1024 .f32) (x1 x2 : Vec Ideal S1x2048x1024 .f32) (off : Nat)
    (hoff : off % 64 = 0) (hle : off + 64 ≤ 1024)
    (inbQ : ∀ a, (![0, 0, off] : Fin 3 → Nat) a + S1x256x64.size a ≤ S1x256x1024.size a)
    (inbK : ∀ a, (![0, 0, off] : Fin 3 → Nat) a + S1x2048x64.size a ≤ S1x2048x1024.size a)
    (inbC : ∀ a, (![0, off] : Fin 2 → Nat) a + S256x64.size a ≤ S256x1024.size a)
    (x : (Rect.unit (s := S256x1024) ![0, off] S256x64.size inbC).shape.Idx) :
    k1_pay3 (F := Ideal) (View.ld x0 (Rect.unit (s := S1x256x1024) ![0, 0, off] S1x256x64.size inbQ))
        (View.ld x1 (Rect.unit (s := S1x2048x1024) ![0, 0, off] S1x2048x64.size inbK))
        (View.ld x2 (Rect.unit (s := S1x2048x1024) ![0, 0, off] S1x2048x64.size inbK)) x
      = Gctx x0 x1 x2 ((Rect.unit (s := S256x1024) ![0, off] S256x64.size inbC).emb x) := by
  obtain ⟨r, j, rfl⟩ : ∃ (r : Fin 256) (j : Fin 64), x = ix2 r j :=
    ⟨⟨(x 0).val, (x 0).isLt⟩, ⟨(x 1).val, (x 1).isLt⟩, funext fun a => Fin.ext (by
      match a with | ⟨0, _⟩ => rfl | ⟨1, _⟩ => rfl)⟩
  have hjlt : off + j.val < 1024 := by have := j.isLt; omega
  have he : (Rect.unit (s := S256x1024) ![0, off] S256x64.size inbC).emb (ix2 r j) = ix2 r (⟨off + j.val, hjlt⟩ : Fin 1024) :=
    funext fun a => Fin.ext (by
      match a with
      | ⟨0, _⟩ => show 0 + 1 * r.val = r.val; omega
      | ⟨1, _⟩ => show off + 1 * j.val = off + j.val; omega)
  rw [he, Gctx_apply, HeadValue.head_apply]
  simp only [ld_cols (n := 256) x0 off inbQ hle, ld_cols (n := 2048) x1 off inbK hle, ld_cols (n := 2048) x2 off inbK hle]
  have hc : ∀ jj : Fin 64, hcol (headOf (⟨off + j.val, hjlt⟩ : Fin 1024)) jj
      = (⟨off + jj.val, by have := jj.isLt; omega⟩ : Fin 1024) := fun jj => Fin.ext (by
    have := jj.isLt; have := j.isLt
    show (off + j.val) / 64 * 64 + jj.val = off + jj.val; omega)
  have hl : laneOf (⟨off + j.val, hjlt⟩ : Fin 1024) = j := Fin.ext (by
    have := j.isLt
    show (off + j.val) % 64 = j.val; omega)
  unfold hd
  simp only [hl, hc]

/-- Each of the sixteen column stores is a tile of the scratch function. -/
theorem pieces_eq (x0 : Vec Ideal S1x256x1024 .f32) (x1 x2 : Vec Ideal S1x2048x1024 .f32) :
    ∀ p ∈ ctxPieces x0 x1 x2, ∀ x : p.1.shape.Idx, p.2 x = Gctx x0 x1 x2 (p.1.emb x) := by
  intro p hp
  unfold ctxPieces at hp
  simp only [List.mem_cons, List.mem_singleton, List.not_mem_nil, or_false] at hp
  rcases hp with rfl | rfl | rfl | rfl | rfl | rfl | rfl | rfl | rfl | rfl | rfl | rfl | rfl | rfl | rfl | rfl
  · exact fun x => piece_eq x0 x1 x2 960 (by decide) (by decide) inb_S1x256x1024_S1x256x64_0_0_960 inb_S1x2048x1024_S1x2048x64_0_0_960 inb_S256x1024_S256x64_0_960 x
  · exact fun x => piece_eq x0 x1 x2 896 (by decide) (by decide) inb_S1x256x1024_S1x256x64_0_0_896 inb_S1x2048x1024_S1x2048x64_0_0_896 inb_S256x1024_S256x64_0_896 x
  · exact fun x => piece_eq x0 x1 x2 832 (by decide) (by decide) inb_S1x256x1024_S1x256x64_0_0_832 inb_S1x2048x1024_S1x2048x64_0_0_832 inb_S256x1024_S256x64_0_832 x
  · exact fun x => piece_eq x0 x1 x2 768 (by decide) (by decide) inb_S1x256x1024_S1x256x64_0_0_768 inb_S1x2048x1024_S1x2048x64_0_0_768 inb_S256x1024_S256x64_0_768 x
  · exact fun x => piece_eq x0 x1 x2 704 (by decide) (by decide) inb_S1x256x1024_S1x256x64_0_0_704 inb_S1x2048x1024_S1x2048x64_0_0_704 inb_S256x1024_S256x64_0_704 x
  · exact fun x => piece_eq x0 x1 x2 640 (by decide) (by decide) inb_S1x256x1024_S1x256x64_0_0_640 inb_S1x2048x1024_S1x2048x64_0_0_640 inb_S256x1024_S256x64_0_640 x
  · exact fun x => piece_eq x0 x1 x2 576 (by decide) (by decide) inb_S1x256x1024_S1x256x64_0_0_576 inb_S1x2048x1024_S1x2048x64_0_0_576 inb_S256x1024_S256x64_0_576 x
  · exact fun x => piece_eq x0 x1 x2 512 (by decide) (by decide) inb_S1x256x1024_S1x256x64_0_0_512 inb_S1x2048x1024_S1x2048x64_0_0_512 inb_S256x1024_S256x64_0_512 x
  · exact fun x => piece_eq x0 x1 x2 448 (by decide) (by decide) inb_S1x256x1024_S1x256x64_0_0_448 inb_S1x2048x1024_S1x2048x64_0_0_448 inb_S256x1024_S256x64_0_448 x
  · exact fun x => piece_eq x0 x1 x2 384 (by decide) (by decide) inb_S1x256x1024_S1x256x64_0_0_384 inb_S1x2048x1024_S1x2048x64_0_0_384 inb_S256x1024_S256x64_0_384 x
  · exact fun x => piece_eq x0 x1 x2 320 (by decide) (by decide) inb_S1x256x1024_S1x256x64_0_0_320 inb_S1x2048x1024_S1x2048x64_0_0_320 inb_S256x1024_S256x64_0_320 x
  · exact fun x => piece_eq x0 x1 x2 256 (by decide) (by decide) inb_S1x256x1024_S1x256x64_0_0_256 inb_S1x2048x1024_S1x2048x64_0_0_256 inb_S256x1024_S256x64_0_256 x
  · exact fun x => piece_eq x0 x1 x2 192 (by decide) (by decide) inb_S1x256x1024_S1x256x64_0_0_192 inb_S1x2048x1024_S1x2048x64_0_0_192 inb_S256x1024_S256x64_0_192 x
  · exact fun x => piece_eq x0 x1 x2 128 (by decide) (by decide) inb_S1x256x1024_S1x256x64_0_0_128 inb_S1x2048x1024_S1x2048x64_0_0_128 inb_S256x1024_S256x64_0_128 x
  · exact fun x => piece_eq x0 x1 x2 64 (by decide) (by decide) inb_S1x256x1024_S1x256x64_0_0_64 inb_S1x2048x1024_S1x2048x64_0_0_64 inb_S256x1024_S256x64_0_64 x
  · exact fun x => piece_eq x0 x1 x2 0 (by decide) (by decide) inb_S1x256x1024_S1x256x64_0_0_0 inb_S1x2048x1024_S1x2048x64_0_0_0 inb_S256x1024_S256x64_0_0 x

/-! ## The output block -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output block at local (0, r, e): the output projection of the scratch function's row `r`, plus the bias. -/
theorem out_apply (x0 : Vec Ideal S1x256x1024 .f32) (x1 x2 : Vec Ideal S1x2048x1024 .f32) (x3 : Vec Ideal S1024x1024 .bf16)
    (x4 : Vec Ideal S1x1024 .f32) (r : Fin 256) (e : Fin 1024) :
    out1_5 x0 x1 x2 x3 x4 (ix3 0 r e)
      = (∑ d : Fin 1024, Gctx x0 x1 x2 (ix2 r d) * x3 (ix2 d e)) + x4 (ix2 0 e) := by
  unfold out1_5
  rw [View.canon_unit_zero hz3]
  simp only [View.ld_unit_zero (S := S256x1024) hz2, View.ld_unit_zero (S := S1024x1024) hz2, View.ld_unit_zero (S := S1x1024) hz2]
  rw [HeadValue.outproj_apply]
  refine congrArg (fun y => y + x4 (ix2 0 e)) (Finset.sum_congr rfl fun d _ => ?_)
  rw [View.canon_apply_of_pieces (Gctx x0 x1 x2) (ctxPieces x0 x1 x2) (pieces_eq x0 x1 x2) (ix2 r d) (ctxCover x0 x1 x2 (ix2 r d))]

/-! ## A grid point's output block from the arrays -/

/-- An array by coordinates at equal coordinates. -/
theorem arr3_congr (Fn : Arr3) {a a' b b' c c' : Nat} (ha : a < 2) (ha' : a' < 2) (hb : b < 2048) (hb' : b' < 2048)
    (hc : c < 1024) (hc' : c' < 1024) (e1 : a = a') (e2 : b = b') (e3 : c = c') :
    Fn ⟨a, ha⟩ ⟨b, hb⟩ ⟨c, hc⟩ = Fn ⟨a', ha'⟩ ⟨b', hb'⟩ ⟨c', hc'⟩ := by
  subst e1 e2 e3; rfl

/-- When the query tile is rows `256·qi …` of batch `b` of `q`, the key and value blocks are batch `b` of `k` and `v`, the
    weight block is `Woᵀ` and the bias block the bias row, the body's output block at local (0, r, e) is the attention
    function at (b, 256·qi + r, e). -/
theorem point_value (Qa Ka Va : Arr3) (WoT : Mat) (bo : Fin 1024 → EReal) (b : Fin 2) (qi : Nat) (hqi : qi < 8)
    (x0 : Vec Ideal S1x256x1024 .f32) (x1 x2 : Vec Ideal S1x2048x1024 .f32) (x3 : Vec Ideal S1024x1024 .bf16)
    (x4 : Vec Ideal S1x1024 .f32)
    (hx0 : ∀ (r : Fin 256) (col : Fin 1024), x0 (ix3 0 r col) = Qa b (⟨qi * 256 + r.val, by have := r.isLt; omega⟩ : Fin 2048) col)
    (hx1 : ∀ (t : Fin 2048) (col : Fin 1024), x1 (ix3 0 t col) = Ka b t col)
    (hx2 : ∀ (t : Fin 2048) (col : Fin 1024), x2 (ix3 0 t col) = Va b t col)
    (hx3 : ∀ d e : Fin 1024, x3 (ix2 d e) = WoT e d)
    (hx4 : ∀ e : Fin 1024, x4 (ix2 0 e) = bo e) (r : Fin 256) (e : Fin 1024) :
    out1_5 x0 x1 x2 x3 x4 (ix3 0 r e)
      = outProj (ctxScaled cEighth cNegInf Qa Ka Va) WoT bo b (⟨qi * 256 + r.val, by have := r.isLt; omega⟩ : Fin 2048) e := by
  rw [out_apply]
  unfold outProj
  rw [hx4]
  refine congrArg (fun y => y + bo e) (Finset.sum_congr rfl fun d _ => ?_)
  rw [hx3, Gctx_apply]
  refine congrArg (fun y => y * WoT e d) ?_
  exact hd_eq Qa Ka Va b _ _ _ _ r (fun d => hx0 r d) hx1 hx2 (headOf d) (laneOf d)

section Region

variable (V : (c : Dev nD) → (b : Ref sig .tc) → Buf (Elt Ideal) ((c : Thread nD τ).loc b)) (c : Dev nD)

/-- The printed index maps over the grid of 2 × 8 points: the query tile and the output block move with (batch, tile),
    the key and value blocks with the batch, the weight and bias blocks stay. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0 :=
  (by decide +kernel : ∀ t : Fin grid1.N, _)

/-- The query tile at point `t`, local (0, r, d), is `q` at (t / 8, 256·(t % 8) + r, d). -/
theorem iblk_q (t : Fin cfg1.N) (r : Fin 256) (d : Fin 1024) :
    (iblk1 V c 0 t : Vec Ideal S1x256x1024 .f32) (ix3 0 r d)
      = (V c main_v7 : S2x2048x1024.Idx → EReal)
          (ix3 (⟨t.val / 8, by have hN : cfg1.N = 16 := N_1; have := t.isLt; omega⟩ : Fin 2)
            (⟨t.val % 8 * 256 + r.val, by have := r.isLt; omega⟩ : Fin 2048) d) := by
  obtain ⟨e0, e1, e2, -⟩ := idx_facts t
  unfold iblk1
  rw [View.read_apply]
  show (V c main_v7 : S2x2048x1024.Idx → EReal) _ = _
  congr 1
  funext a
  apply Fin.ext
  match a with
  | ⟨0, _⟩ => show win1_0.index t (0 : Fin 3) * 1 + 1 * 0 = t.val / 8; omega
  | ⟨1, _⟩ => show win1_0.index t (1 : Fin 3) * 256 + 1 * r.val = t.val % 8 * 256 + r.val; omega
  | ⟨2, _⟩ => show win1_0.index t (2 : Fin 3) * 1024 + 1 * d.val = d.val; omega

/-- The key block at point `t`, local (0, s, d), is `k` at (t / 8, s, d); the value block likewise. -/
theorem iblk_k (t : Fin cfg1.N) (s : Fin 2048) (d : Fin 1024) :
    (iblk1 V c 1 t : Vec Ideal S1x2048x1024 .f32) (ix3 0 s d)
      = (V c main_v8 : S2x2048x1024.Idx → EReal)
          (ix3 (⟨t.val / 8, by have hN : cfg1.N = 16 := N_1; have := t.isLt; omega⟩ : Fin 2) s d) := by
  obtain ⟨-, -, -, e0, e1, e2, -⟩ := idx_facts t
  unfold iblk1
  rw [View.read_apply]
  show (V c main_v8 : S2x2048x1024.Idx → EReal) _ = _
  congr 1
  funext a
  apply Fin.ext
  match a with
  | ⟨0, _⟩ => show win1_1.index t (0 : Fin 3) * 1 + 1 * 0 = t.val / 8; omega
  | ⟨1, _⟩ => show win1_1.index t (1 : Fin 3) * 2048 + 1 * s.val = s.val; omega
  | ⟨2, _⟩ => show win1_1.index t (2 : Fin 3) * 1024 + 1 * d.val = d.val; omega

theorem iblk_v (t : Fin cfg1.N) (s : Fin 2048) (d : Fin 1024) :
    (iblk1 V c 2 t : Vec Ideal S1x2048x1024 .f32) (ix3 0 s d)
      = (V c main_v9 : S2x2048x1024.Idx → EReal)
          (ix3 (⟨t.val / 8, by have hN : cfg1.N = 16 := N_1; have := t.isLt; omega⟩ : Fin 2) s d) := by
  obtain ⟨-, -, -, -, -, -, e0, e1, e2, -⟩ := idx_facts t
  unfold iblk1
  rw [View.read_apply]
  show (V c main_v9 : S2x2048x1024.Idx → EReal) _ = _
  congr 1
  funext a
  apply Fin.ext
  match a with
  | ⟨0, _⟩ => show win1_2.index t (0 : Fin 3) * 1 + 1 * 0 = t.val / 8; omega
  | ⟨1, _⟩ => show win1_2.index t (1 : Fin 3) * 2048 + 1 * s.val = s.val; omega
  | ⟨2, _⟩ => show win1_2.index t (2 : Fin 3) * 1024 + 1 * d.val = d.val; omega

/-- The weight block and the bias block are the whole arrays. -/
theorem iblk_w (t : Fin cfg1.N) (d e : Fin 1024) :
    (iblk1 V c 3 t : Vec Ideal S1024x1024 .bf16) (ix2 d e) = (V c main_v11 : S1024x1024.Idx → EReal) (ix2 d e) := by
  obtain ⟨-, -, -, -, -, -, -, -, -, e0, e1, -⟩ := idx_facts t
  unfold iblk1
  rw [View.read_apply]
  show (V c main_v11 : S1024x1024.Idx → EReal) _ = _
  congr 1
  funext a
  apply Fin.ext
  match a with
  | ⟨0, _⟩ => show win1_3.index t (0 : Fin 2) * 1024 + 1 * d.val = d.val; omega
  | ⟨1, _⟩ => show win1_3.index t (1 : Fin 2) * 1024 + 1 * e.val = e.val; omega

theorem iblk_b (t : Fin cfg1.N) (e : Fin 1024) :
    (iblk1 V c 4 t : Vec Ideal S1x1024 .f32) (ix2 0 e) = (V c main_v12 : S1x1024.Idx → EReal) (ix2 0 e) := by
  obtain ⟨-, -, -, -, -, -, -, -, -, -, -, e0, e1, -⟩ := idx_facts t
  unfold iblk1
  rw [View.read_apply]
  show (V c main_v12 : S1x1024.Idx → EReal) _ = _
  congr 1
  funext a
  apply Fin.ext
  match a with
  | ⟨0, _⟩ => show win1_4.index t (0 : Fin 2) * 1 + 1 * 0 = 0; omega
  | ⟨1, _⟩ => show win1_4.index t (1 : Fin 2) * 1024 + 1 * e.val = e.val; omega

/-! ## The output array -/

/-- The attention function of the arrays as the region finds them, as one function of the output's index. -/
def G5 : S2x2048x1024.Idx → EReal := fun i =>
  outProj (ctxScaled cEighth cNegInf (curry3 (V c main_v7 : S2x2048x1024.Idx → EReal)) (curry3 (V c main_v8 : S2x2048x1024.Idx → EReal)) (curry3 (V c main_v9 : S2x2048x1024.Idx → EReal)))
    (fun e' d => (V c main_v11 : S1024x1024.Idx → EReal) (ix2 d e')) (fun e' => (V c main_v12 : S1x1024.Idx → EReal) (ix2 (0 : Fin 1) e'))
    (⟨(i 0).val, (i 0).isLt⟩ : Fin 2) (⟨(i 1).val, (i 1).isLt⟩ : Fin 2048) (⟨(i 2).val, (i 2).isLt⟩ : Fin 1024)

/-- What point `t` writes back is block `t` of that function. -/
theorem flushed_eq (t : Fin cfg1.N) :
    (dat1 V c).flushed 5 t = ((cfg1.win 5).blk t).view.read (Elt Ideal) (G5 V c) := by
  show (cfg1.win 5).cut (grid1.coords t) ((dat1 V c).after 5 t) = _
  rw [after1_5]
  have hN : cfg1.N = 16 := N_1
  have ht := t.isLt
  obtain ⟨-, -, -, -, -, -, -, -, -, -, -, -, -, e0, e1, e2⟩ := idx_facts t
  funext j
  have hj0 : (j 0).val < 1 := (j 0).isLt
  have hj1 : (j 1).val < 256 := (j 1).isLt
  have hj2 : (j 2).val < 1024 := (j 2).isLt
  have hj : j = ix3 (0 : Fin 1) (⟨(j 1).val, hj1⟩ : Fin 256) (⟨(j 2).val, hj2⟩ : Fin 1024) := funext fun a => Fin.ext (by
    match a with
    | ⟨0, _⟩ => show (j 0).val = 0; omega
    | ⟨1, _⟩ => rfl
    | ⟨2, _⟩ => rfl)
  show out1_5 (iblk1 V c 0 t) (iblk1 V c 1 t) (iblk1 V c 2 t) (iblk1 V c 3 t) (iblk1 V c 4 t) j
      = G5 V c (((cfg1.win 5).blk t).view.emb j)
  refine ((congrArg (out1_5 (iblk1 V c 0 t) (iblk1 V c 1 t) (iblk1 V c 2 t) (iblk1 V c 3 t) (iblk1 V c 4 t)) hj).trans
    (point_value (curry3 (V c main_v7 : S2x2048x1024.Idx → EReal)) (curry3 (V c main_v8 : S2x2048x1024.Idx → EReal))
      (curry3 (V c main_v9 : S2x2048x1024.Idx → EReal))
      (fun e' d => (V c main_v11 : S1024x1024.Idx → EReal) (ix2 d e')) (fun e' => (V c main_v12 : S1x1024.Idx → EReal) (ix2 (0 : Fin 1) e'))
      (⟨t.val / 8, by omega⟩ : Fin 2) (t.val % 8) (by omega) _ _ _ _ _
      (fun r col => iblk_q V c t r col) (fun s col => iblk_k V c t s col) (fun s col => iblk_v V c t s col)
      (fun d e => iblk_w V c t d e) (fun e => iblk_b V c t e) ⟨(j 1).val, hj1⟩ ⟨(j 2).val, hj2⟩)).trans ?_
  unfold G5
  refine arr3_congr _ _ _ _ _ _ _ ?_ ?_ ?_
  · show t.val / 8 = win1_5.index t (0 : Fin 3) * 1 + 1 * (j 0).val; omega
  · show t.val % 8 * 256 + (j 1).val = win1_5.index t (1 : Fin 3) * 256 + 1 * (j 1).val; omega
  · show (j 2).val = win1_5.index t (2 : Fin 3) * 1024 + 1 * (j 2).val; omega

/-- The blocks of the 16 points tile the output array: (b, s, e) lies in the block of point 8·b + s / 256. -/
theorem cover (i : S2x2048x1024.Idx) :
    ∃ t : Fin cfg1.N, (cfg1.win 5).flush t = true ∧ i ∈ ((cfg1.win 5).blk t).view.set := by
  have hN : cfg1.N = 16 := N_1
  have h0 : (i 0).val < 2 := (i 0).isLt
  have h1 : (i 1).val < 2048 := (i 1).isLt
  have h2 : (i 2).val < 1024 := (i 2).isLt
  obtain ⟨t, htv⟩ : ∃ t : Fin cfg1.N, t.val = 8 * (i 0).val + (i 1).val / 256 :=
    ⟨⟨8 * (i 0).val + (i 1).val / 256, by omega⟩, rfl⟩
  obtain ⟨-, -, -, -, -, -, -, -, -, -, -, -, -, e0, e1, e2⟩ := idx_facts t
  refine ⟨t, flush1_5 t, ?_⟩
  show i ∈ ((View.whole main_v13).slice (win1_5.rect t)).set
  rw [View.set_slice_whole, Rect.mem_set_unit]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- The output array after the region, index by index: the output projection of the scaled-score context of the three
    projected arrays, with the weight read transposed and the bias row. -/
theorem attn_final (b : Fin 2) (s : Fin 2048) (e : Fin 1024) :
    ((dat1 V c).arrAt 5 cfg1.N : S2x2048x1024.Idx → EReal) (ix3 b s e)
      = outProj (ctxScaled cEighth cNegInf (curry3 (V c main_v7 : S2x2048x1024.Idx → EReal)) (curry3 (V c main_v8 : S2x2048x1024.Idx → EReal)) (curry3 (V c main_v9 : S2x2048x1024.Idx → EReal)))
          (fun e' d => (V c main_v11 : S1024x1024.Idx → EReal) (ix2 d e')) (fun e' => (V c main_v12 : S1x1024.Idx → EReal) (ix2 (0 : Fin 1) e')) b s e := by
  have h := (dat1 V c).arrAt_eq_of_cover 5 (G5 V c) (fun t _ => flushed_eq V c t) (cover)
  exact (congrFun h (ix3 b s e)).trans rfl

end Region

end Cert.KernelIdeal.RunValue

end
-- ==== Proof.ProjValue.lean ====
/-
  What the fused q / k / v projection region leaves in its three output arrays, index by index, at the ideal values.

  The body multiplies a 512 × 1024 block of rows of the flattened input by the whole 1024 × 3072 weight matrix and stores
  the three 512 × 1024 column slices of the product.  At the ideal values the format change of the left operand is the
  identity and the product accumulated into zero is the plain sum over the contracted axis, so entry (r, e) of slice n is
  `∑ d, x (r, d) * w (d, e + 1024·n)`.  The eight grid points write the eight row blocks of each output, which tile it:
  entry (R, e) of output n ends at `∑ d, X (R, d) * W (d, e + 1024·n)` of the arrays the region was entered with.
-/
import proofs.«179820_j79611513799233_2_alg».proof.Proof.Blocks
import proofs.«179820_j79611513799233_2_alg».proof.Proof.LibDotRead
import proofs.«179820_j79611513799233_2_alg».proof.Proof.Entries
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RunValue

open Cert.KernelIdeal Cert.KernelIdeal.Gen Cert.KernelIdeal.Run Idealize.ShloMosaic Idealize.ShloMosaic.ValueIdx Idealize.SL.Sem
open Idealize.ShloMosaic.Pipeline (Dat)
open Idealize.ShloMosaic.TcCoe

/-! # The payloads at an index -/

/-- Entry (r, c) of the block's product with the weights: the sum over the 1024 input features. -/
theorem pay1_apply (x : Vec Ideal S512x1024 .f32) (w : Vec Ideal S1024x3072 .bf16) (r : Fin 512) (c : Fin 3072) :
    k0_pay1 (F := Ideal) x w (ix2 r c) = ∑ d : Fin 1024, x (ix2 r d) * w (ix2 d c) := by
  unfold k0_pay1
  refine (Idealize.ShloMosaic.DotRead.matmul_plain_zero_apply 512 1024 3072 none _ _ r c).trans ?_
  refine Finset.sum_congr rfl fun d _ => ?_
  rw [truncf_apply, shapeCast_self, shapeCast_self]

/-- Entry (r, e) of the first column slice. -/
theorem qkv_apply0 (x : Vec Ideal S512x1024 .f32) (w : Vec Ideal S1024x3072 .bf16) (r : Fin 512) (e : Fin 1024) :
    k0_pay2 (F := Ideal) x w (ix2 r e) = ∑ d : Fin 1024, x (ix2 r d) * w (ix2 d ⟨e.val, by omega⟩) := by
  unfold k0_pay2
  refine (extractStridedSlice_apply _ _ _ (ix2 r e) (ix2 r ⟨e.val, by omega⟩) fun a => ?_).trans (pay1_apply x w r _)
  match a with
  | ⟨0, _⟩ => exact (Nat.zero_add _).symm
  | ⟨1, _⟩ => exact (Nat.zero_add _).symm

/-- Entry (r, e) of the second column slice. -/
theorem qkv_apply1 (x : Vec Ideal S512x1024 .f32) (w : Vec Ideal S1024x3072 .bf16) (r : Fin 512) (e : Fin 1024) :
    k0_pay3 (F := Ideal) x w (ix2 r e) = ∑ d : Fin 1024, x (ix2 r d) * w (ix2 d ⟨e.val + 1024, by omega⟩) := by
  unfold k0_pay3
  refine (extractStridedSlice_apply _ _ _ (ix2 r e) (ix2 r ⟨e.val + 1024, by omega⟩) fun a => ?_).trans (pay1_apply x w r _)
  match a with
  | ⟨0, _⟩ => exact (Nat.zero_add _).symm
  | ⟨1, _⟩ => exact Nat.add_comm _ _

/-- Entry (r, e) of the third column slice. -/
theorem qkv_apply2 (x : Vec Ideal S512x1024 .f32) (w : Vec Ideal S1024x3072 .bf16) (r : Fin 512) (e : Fin 1024) :
    k0_pay4 (F := Ideal) x w (ix2 r e) = ∑ d : Fin 1024, x (ix2 r d) * w (ix2 d ⟨e.val + 2048, by omega⟩) := by
  unfold k0_pay4
  refine (extractStridedSlice_apply _ _ _ (ix2 r e) (ix2 r ⟨e.val + 2048, by omega⟩) fun a => ?_).trans (pay1_apply x w r _)
  match a with
  | ⟨0, _⟩ => exact (Nat.zero_add _).symm
  | ⟨1, _⟩ => exact Nat.add_comm _ _

/-! # From blocks to the arrays -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- What output `n` ends holding: entry `i` is the sum over the input features of the input's row `i 0` times the weights'
    column `i 1 + off`, where `off = 1024·n`. -/
def G (off : Nat) (hoff : off + 1024 ≤ 3072) (X : S4096x1024.Idx → EReal) (W : S1024x3072.Idx → EReal) :
    S4096x1024.Idx → EReal := fun i =>
  ∑ d : Fin 1024, X (ix2 (⟨(i 0).val, (i 0).isLt⟩ : Fin 4096) d)
    * W (ix2 d (⟨(i 1).val + off, by have h : (i 1).val < 1024 := (i 1).isLt; omega⟩ : Fin 3072))

theorem G_ix2 (off : Nat) (hoff : off + 1024 ≤ 3072) (X : S4096x1024.Idx → EReal) (W : S1024x3072.Idx → EReal)
    (R : Fin 4096) (e : Fin 1024) :
    G off hoff X W (ix2 R e) = ∑ d : Fin 1024, X (ix2 R d) * W (ix2 d ⟨e.val + off, by omega⟩) := rfl

/-- One block, over plain vectors: a body payload that is column slice `off` of (block) · (weights), on the block of rows
    `512·n …` of `X` and on the whole of `W`, is the block of `G` at those rows. -/
theorem pay_eq_G (off : Nat) (hoff : off + 1024 ≤ 3072)
    (pay : Vec Ideal S512x1024 .f32 → Vec Ideal S1024x3072 .bf16 → FVec Ideal S512x1024 .f32)
    (hpay : ∀ x w (r : Fin 512) (e : Fin 1024), pay x w (ix2 r e) = ∑ d : Fin 1024, x (ix2 r d) * w (ix2 d ⟨e.val + off, by omega⟩))
    (X : S4096x1024.Idx → EReal) (W : S1024x3072.Idx → EReal)
    (xb : Vec Ideal S512x1024 .f32) (wb : Vec Ideal S1024x3072 .bf16) (n : Nat)
    (hx : ∀ (y : S512x1024.Idx) (k : S4096x1024.Idx), (k 0).val = n * 512 + (y 0).val → (k 1).val = (y 1).val → xb y = X k)
    (hw : ∀ y : S1024x3072.Idx, wb y = W y)
    (y : S512x1024.Idx) (k : S4096x1024.Idx) (hk0 : (k 0).val = n * 512 + (y 0).val) (hk1 : (k 1).val = (y 1).val) :
    pay xb wb y = G off hoff X W k := by
  obtain ⟨r, e, rfl⟩ : ∃ r e, y = ix2 r e := ⟨_, _, eq_ix2 y⟩
  rw [hpay]
  unfold G
  refine Finset.sum_congr rfl fun d _ => ?_
  rw [hx (ix2 r d) (ix2 (⟨(k 0).val, (k 0).isLt⟩ : Fin 4096) d) hk0 rfl, hw]
  refine congrArg (fun j => X _ * W (ix2 d j)) (Fin.ext ?_)
  show e.val + off = (k 1).val + off
  rw [hk1]

/-- The printed index maps over the grid: input window 0 and the three outputs sit at block row `t`, column block 0; the
    weights' window at block (0, 0). -/
theorem proj_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input window's block at point `t` is rows `512·t … 512·t + 511` of the flattened input. -/
theorem iblk0_0_apply (t : Fin cfg0.N) (y : S512x1024.Idx) (k : S4096x1024.Idx)
    (hk0 : (k 0).val = t.val * 512 + (y 0).val) (hk1 : (k 1).val = (y 1).val) :
    (iblk0 V c 0 t : Vec Ideal S512x1024 .f32) y = (V c main_v0 : S4096x1024.Idx → EReal) k := by
  obtain ⟨e0, e1, -⟩ := proj_idx_facts t
  unfold iblk0
  rw [View.read_apply]
  show V c main_v0 _ = V c main_v0 _
  congr 1
  funext a
  apply Fin.ext
  match a with
  | ⟨0, _⟩ => show win0_0.index t 0 * 512 + 1 * (y 0).val = (k 0).val; rw [e0, hk0]; omega
  | ⟨1, _⟩ => show win0_0.index t 1 * 1024 + 1 * (y 1).val = (k 1).val; rw [e1, hk1]; omega

/-- The weights' window holds the whole weight matrix at every point. -/
theorem iblk0_1_apply (t : Fin cfg0.N) (y : S1024x3072.Idx) :
    (iblk0 V c 1 t : Vec Ideal S1024x3072 .bf16) y = (V c main_v5 : S1024x3072.Idx → EReal) y := by
  obtain ⟨-, -, e2, e3, -⟩ := proj_idx_facts t
  unfold iblk0
  rw [View.read_apply]
  show V c main_v5 _ = V c main_v5 _
  congr 1
  funext a
  apply Fin.ext
  match a with
  | ⟨0, _⟩ => show win0_1.index t 0 * 1024 + 1 * (y 0).val = (y 0).val; rw [e2]; omega
  | ⟨1, _⟩ => show win0_1.index t 1 * 3072 + 1 * (y 1).val = (y 1).val; rw [e3]; omega

/-! ## Output window 2 -/

/-- What point `t` writes back into output 0 is block `t` of `G` at column offset 0. -/
theorem flushed2_eq (t : Fin cfg0.N) :
    (dat0 V c).flushed 2 t = ((cfg0.win 2).blk t).view.read (Elt Ideal) (G 0 (by omega) (V c main_v0) (V c main_v5)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x3072) hz]
  obtain ⟨-, -, -, -, e0, e1, -⟩ := proj_idx_facts t
  funext j
  refine pay_eq_G 0 (by omega) k0_pay2 (fun x w r e => qkv_apply0 x w r e) (V c main_v0) (V c main_v5)
    (iblk0 V c 0 t) (iblk0 V c 1 t) t.val (fun y k h0 h1 => iblk0_0_apply V c t y k h0 h1) (fun y => iblk0_1_apply V c t y)
    j (((cfg0.win 2).blk t).view.emb j) ?_ ?_
  · show win0_2.index t (0 : Fin 2) * 512 + 1 * (j 0).val = t.val * 512 + (j 0).val
    rw [e0]; omega
  · show win0_2.index t (1 : Fin 2) * 1024 + 1 * (j 1).val = (j 1).val
    rw [e1]; omega

/-- An index of the array is in point `t`'s block iff each coordinate is in the block's range on its axis. -/
theorem mem_blk2 (t : Fin cfg0.N) (i : S4096x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v6_0).slice (win0_2.rect t)).set ↔ _
  rw [View.set_slice_whole, Rect.mem_set_unit]
  exact Iff.rfl

/-- Row `R` is in the block of point `R / 512`: the eight row blocks tile the array. -/
theorem cover2 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have ht : (i 0).val / 512 < cfg0.N := by show _ < 8; omega
  obtain ⟨-, -, -, -, e0, e1, -⟩ := proj_idx_facts ⟨(i 0).val / 512, ht⟩
  refine ⟨⟨(i 0).val / 512, ht⟩, flush0_2 _, ?_⟩
  rw [mem_blk2]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_2.index ⟨(i 0).val / 512, ht⟩ (1 : Fin 2) * 1024 ≤ (i 1).val
      ∧ (i 1).val < win0_2.index ⟨(i 0).val / 512, ht⟩ (1 : Fin 2) * 1024 + 1024
    rw [e1]; omega

/-- Output 0 after the region. -/
theorem final2 : (dat0 V c).arrAt 2 cfg0.N = G 0 (by omega) (V c main_v0) (V c main_v5) :=
  (dat0 V c).arrAt_eq_of_cover 2 (G 0 (by omega) (V c main_v0) (V c main_v5)) (fun t _ => flushed2_eq V c t) (cover2)

/-! ## Output window 3 -/

/-- What point `t` writes back into output 1 is block `t` of `G` at column offset 1024. -/
theorem flushed3_eq (t : Fin cfg0.N) :
    (dat0 V c).flushed 3 t = ((cfg0.win 3).blk t).view.read (Elt Ideal) (G 1024 (by omega) (V c main_v0) (V c main_v5)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x3072) hz]
  obtain ⟨-, -, -, -, -, -, e0, e1, -⟩ := proj_idx_facts t
  funext j
  refine pay_eq_G 1024 (by omega) k0_pay3 (fun x w r e => qkv_apply1 x w r e) (V c main_v0) (V c main_v5)
    (iblk0 V c 0 t) (iblk0 V c 1 t) t.val (fun y k h0 h1 => iblk0_0_apply V c t y k h0 h1) (fun y => iblk0_1_apply V c t y)
    j (((cfg0.win 3).blk t).view.emb j) ?_ ?_
  · show win0_3.index t (0 : Fin 2) * 512 + 1 * (j 0).val = t.val * 512 + (j 0).val
    rw [e0]; omega
  · show win0_3.index t (1 : Fin 2) * 1024 + 1 * (j 1).val = (j 1).val
    rw [e1]; omega

/-- An index of the array is in point `t`'s block iff each coordinate is in the block's range on its axis. -/
theorem mem_blk3 (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v6_1).slice (win0_3.rect t)).set ↔ _
  rw [View.set_slice_whole, Rect.mem_set_unit]
  exact Iff.rfl

/-- Row `R` is in the block of point `R / 512`: the eight row blocks tile the array. -/
theorem cover3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have ht : (i 0).val / 512 < cfg0.N := by show _ < 8; omega
  obtain ⟨-, -, -, -, -, -, e0, e1, -⟩ := proj_idx_facts ⟨(i 0).val / 512, ht⟩
  refine ⟨⟨(i 0).val / 512, ht⟩, flush0_3 _, ?_⟩
  rw [mem_blk3]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, ht⟩ (1 : Fin 2) * 1024 ≤ (i 1).val
      ∧ (i 1).val < win0_3.index ⟨(i 0).val / 512, ht⟩ (1 : Fin 2) * 1024 + 1024
    rw [e1]; omega

/-- Output 1 after the region. -/
theorem final3 : (dat0 V c).arrAt 3 cfg0.N = G 1024 (by omega) (V c main_v0) (V c main_v5) :=
  (dat0 V c).arrAt_eq_of_cover 3 (G 1024 (by omega) (V c main_v0) (V c main_v5)) (fun t _ => flushed3_eq V c t) (cover3)

/-! ## Output window 4 -/

/-- What point `t` writes back into output 2 is block `t` of `G` at column offset 2048. -/
theorem flushed4_eq (t : Fin cfg0.N) :
    (dat0 V c).flushed 4 t = ((cfg0.win 4).blk t).view.read (Elt Ideal) (G 2048 (by omega) (V c main_v0) (V c main_v5)) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x3072) hz]
  obtain ⟨-, -, -, -, -, -, -, -, e0, e1⟩ := proj_idx_facts t
  funext j
  refine pay_eq_G 2048 (by omega) k0_pay4 (fun x w r e => qkv_apply2 x w r e) (V c main_v0) (V c main_v5)
    (iblk0 V c 0 t) (iblk0 V c 1 t) t.val (fun y k h0 h1 => iblk0_0_apply V c t y k h0 h1) (fun y => iblk0_1_apply V c t y)
    j (((cfg0.win 4).blk t).view.emb j) ?_ ?_
  · show win0_4.index t (0 : Fin 2) * 512 + 1 * (j 0).val = t.val * 512 + (j 0).val
    rw [e0]; omega
  · show win0_4.index t (1 : Fin 2) * 1024 + 1 * (j 1).val = (j 1).val
    rw [e1]; omega

/-- An index of the array is in point `t`'s block iff each coordinate is in the block's range on its axis. -/
theorem mem_blk4 (t : Fin cfg0.N) (i : S4096x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v6_2).slice (win0_4.rect t)).set ↔ _
  rw [View.set_slice_whole, Rect.mem_set_unit]
  exact Iff.rfl

/-- Row `R` is in the block of point `R / 512`: the eight row blocks tile the array. -/
theorem cover4 (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have ht : (i 0).val / 512 < cfg0.N := by show _ < 8; omega
  obtain ⟨-, -, -, -, -, -, -, -, e0, e1⟩ := proj_idx_facts ⟨(i 0).val / 512, ht⟩
  refine ⟨⟨(i 0).val / 512, ht⟩, flush0_4 _, ?_⟩
  rw [mem_blk4]
  intro a
  match a with
  | ⟨0, _⟩ =>
    show win0_4.index ⟨(i 0).val / 512, ht⟩ (0 : Fin 2) * 512 ≤ (i 0).val
      ∧ (i 0).val < win0_4.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, ht⟩ (1 : Fin 2) * 1024 ≤ (i 1).val
      ∧ (i 1).val < win0_4.index ⟨(i 0).val / 512, ht⟩ (1 : Fin 2) * 1024 + 1024
    rw [e1]; omega

/-- Output 2 after the region. -/
theorem final4 : (dat0 V c).arrAt 4 cfg0.N = G 2048 (by omega) (V c main_v0) (V c main_v5) :=
  (dat0 V c).arrAt_eq_of_cover 4 (G 2048 (by omega) (V c main_v0) (V c main_v5)) (fun t _ => flushed4_eq V c t) (cover4)

/-! ## The three outputs by coordinates -/

/-- q: entry (R, e) of the first output is the input's row `R` against the weights' column `e`. -/
theorem projQ (R : Fin 4096) (e : Fin 1024) :
    Cert.MHA.flat2 ((dat0 V c).arrAt 2 cfg0.N) R e
      = ∑ d : Fin 1024, Cert.MHA.flat2 (V c main_v0) R d * Cert.MHA.wide2 (V c main_v5) d ⟨e.val, by omega⟩ :=
  (congrFun (final2 V c) (ix2 R e)).trans (G_ix2 0 (by omega) (V c main_v0) (V c main_v5) R e)

/-- k: entry (R, e) of the second output is the input's row `R` against the weights' column `e + 1024`. -/
theorem projK (R : Fin 4096) (e : Fin 1024) :
    Cert.MHA.flat2 ((dat0 V c).arrAt 3 cfg0.N) R e
      = ∑ d : Fin 1024, Cert.MHA.flat2 (V c main_v0) R d * Cert.MHA.wide2 (V c main_v5) d ⟨e.val + 1024, by omega⟩ :=
  (congrFun (final3 V c) (ix2 R e)).trans (G_ix2 1024 (by omega) (V c main_v0) (V c main_v5) R e)

/-- v: entry (R, e) of the third output is the input's row `R` against the weights' column `e + 2048`. -/
theorem projV (R : Fin 4096) (e : Fin 1024) :
    Cert.MHA.flat2 ((dat0 V c).arrAt 4 cfg0.N) R e
      = ∑ d : Fin 1024, Cert.MHA.flat2 (V c main_v0) R d * Cert.MHA.wide2 (V c main_v5) d ⟨e.val + 2048, by omega⟩ :=
  (congrFun (final4 V c) (ix2 R e)).trans (G_ix2 2048 (by omega) (V c main_v0) (V c main_v5) R e)

end Cert.KernelIdeal.RunValue

end
-- ==== Proof.HostStretch.lean ====
/-
  The first host stretch of the attention program, read at an index: what the first pipelined region finds in its two
  input arrays, in terms of the launch contents of the arguments.

  * The flattened input [4096, 1024] is the reshape of the first argument [2, 2048, 1024]: row `r` is position
    `r % 2048` of batch `r / 2048`.
  * The fused weight matrix [1024, 3072] is the transposes of the query, key and value weight matrices laid side by side
    along the columns (the change of float format is the identity on the extended reals): entry `(d, e)`,
    `(d, 1024 + e)`, `(d, 2048 + e)` is entry `(e, d)` of the query, key, value weights.
  * No operation of the stretch writes an argument.
-/
import proofs.«179820_j79611513799233_2_alg».proof.Proof.Blocks
import proofs.«179820_j79611513799233_2_alg».proof.Proof.Entries
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.RunValue

open Idealize.ShloMosaic.TcCoe
open Cert.KernelIdeal Cert.KernelIdeal.Gen Cert.KernelIdeal.Run Idealize.ShloMosaic Idealize.ShloMosaic.ValueIdx Idealize.SL.Sem

variable (m : (ℓ : Loc nD τ sig) → Buf (Elt Ideal) ℓ) (ρ : Dev nD → PrngReg) (c : Dev nD)

/-! ### Layout operations of the literal shapes, read at an index -/

section Layout
variable {α : Type}

/-- `[2, 2048, 1024]` flattened to `[4096, 1024]`: row `r` is position `r % 2048` of batch `r / 2048`. -/
theorem flatten_apply (x : S2x2048x1024.Idx → α) (h : S2x2048x1024.ShapeCasts S4096x1024) (r : Fin 4096) (d : Fin 1024) :
    shapeCast S4096x1024 x h (ix2 r d) = x (ix3 ⟨r.val / 2048, by omega⟩ ⟨r.val % 2048, by omega⟩ d) := by
  refine shapeCast_apply x h _ _ ?_
  rw [Shape.rowMajor_val_three, Shape.rowMajor_val_two]
  show (r.val / 2048 * 2048 + r.val % 2048) * 1024 + d.val = r.val * 1024 + d.val
  omega

/-- `[4096, 1024]` cast back to `[2, 2048, 1024]`: position `s` of batch `b` is row `2048 b + s`. -/
theorem unflatten_apply (x : S4096x1024.Idx → α) (h : S4096x1024.ShapeCasts S2x2048x1024) (b : Fin 2) (s : Fin 2048) (e : Fin 1024) :
    shapeCast S2x2048x1024 x h (ix3 b s e) = x (ix2 ⟨b.val * 2048 + s.val, by omega⟩ e) := by
  refine shapeCast_apply x h _ _ ?_
  rw [Shape.rowMajor_val_three, Shape.rowMajor_val_two]
  show (b.val * 2048 + s.val) * 1024 + e.val = (b.val * 2048 + s.val) * 1024 + e.val
  rfl

/-- Three `[1024, 1024]` matrices side by side: columns `0 … 1023` are the first. -/
theorem concat3_apply_0 (x1 x2 x3 : S1024x1024.Idx → α)
    (h : Shape.Concatenates [S1024x1024, S1024x1024, S1024x1024] S1024x3072 1)
    (d e : Fin 1024) :
    concatenate S1024x3072 1 [⟨S1024x1024, x1⟩, ⟨S1024x1024, x2⟩, ⟨S1024x1024, x3⟩] h (ix2 d ⟨e.val, by omega⟩) = x1 (ix2 d e) := by
  refine concatenate_apply_piece (t := S1024x3072) (1 : Fin 2) [⟨S1024x1024, x1⟩, ⟨S1024x1024, x2⟩, ⟨S1024x1024, x3⟩] h (ix2 d _) 0 (by simp) S1024x1024 x1 rfl rfl 0 rfl (ix2 d e) ?_ ?_
  · intro b hb
    match b with
    | ⟨0, _⟩ => rfl
    | ⟨1, _⟩ => exact absurd rfl hb
  · show 0 + e.val = e.val
    omega

/-- Columns `1024 … 2047` are the second. -/
theorem concat3_apply_1 (x1 x2 x3 : S1024x1024.Idx → α)
    (h : Shape.Concatenates [S1024x1024, S1024x1024, S1024x1024] S1024x3072 1)
    (d e : Fin 1024) :
    concatenate S1024x3072 1 [⟨S1024x1024, x1⟩, ⟨S1024x1024, x2⟩, ⟨S1024x1024, x3⟩] h (ix2 d ⟨e.val + 1024, by omega⟩) = x2 (ix2 d e) := by
  refine concatenate_apply_piece (t := S1024x3072) (1 : Fin 2) [⟨S1024x1024, x1⟩, ⟨S1024x1024, x2⟩, ⟨S1024x1024, x3⟩] h (ix2 d _) 1 (by simp) S1024x1024 x2 rfl rfl 1024 rfl (ix2 d e) ?_ ?_
  · intro b hb
    match b with
    | ⟨0, _⟩ => rfl
    | ⟨1, _⟩ => exact absurd rfl hb
  · show 1024 + e.val = e.val + 1024
    omega

/-- Columns `2048 … 3071` are the third. -/
theorem concat3_apply_2 (x1 x2 x3 : S1024x1024.Idx → α)
    (h : Shape.Concatenates [S1024x1024, S1024x1024, S1024x1024] S1024x3072 1)
    (d e : Fin 1024) :
    concatenate S1024x3072 1 [⟨S1024x1024, x1⟩, ⟨S1024x1024, x2⟩, ⟨S1024x1024, x3⟩] h (ix2 d ⟨e.val + 2048, by omega⟩) = x3 (ix2 d e) := by
  refine concatenate_apply_piece (t := S1024x3072) (1 : Fin 2) [⟨S1024x1024, x1⟩, ⟨S1024x1024, x2⟩, ⟨S1024x1024, x3⟩] h (ix2 d _) 2 (by simp) S1024x1024 x3 rfl rfl 2048 rfl (ix2 d e) ?_ ?_
  · intro b hb
    match b with
    | ⟨0, _⟩ => rfl
    | ⟨1, _⟩ => exact absurd rfl hb
  · show 2048 + e.val = e.val + 2048
    omega

end Layout

/-! ### The arguments are as launched at the first region's entry -/

theorem W1_arg0 : W1 m ρ c (Proc.devRef .tc main_arg0) = m ((c : Thread nD τ).loc main_arg0) := by
  dsimp only [W1, hostOps0]; after_results
theorem W1_arg1 : W1 m ρ c (Proc.devRef .tc main_arg1) = m ((c : Thread nD τ).loc main_arg1) := by
  dsimp only [W1, hostOps0]; after_results
theorem W1_arg2 : W1 m ρ c (Proc.devRef .tc main_arg2) = m ((c : Thread nD τ).loc main_arg2) := by
  dsimp only [W1, hostOps0]; after_results
theorem W1_arg3 : W1 m ρ c (Proc.devRef .tc main_arg3) = m ((c : Thread nD τ).loc main_arg3) := by
  dsimp only [W1, hostOps0]; after_results
theorem W1_arg4 : W1 m ρ c (Proc.devRef .tc main_arg4) = m ((c : Thread nD τ).loc main_arg4) := by
  dsimp only [W1, hostOps0]; after_results
theorem W1_arg5 : W1 m ρ c (Proc.devRef .tc main_arg5) = m ((c : Thread nD τ).loc main_arg5) := by
  dsimp only [W1, hostOps0]; after_results

/-! ### What the first stretch leaves in the first region's two input arrays -/

/-- An operation on three literal operands hands its function each operand's contents at that operand's own
    reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The flattened input is the reshape of the first argument. -/
theorem V1_v0_eq : (V1 m ρ c main_v0 : S4096x1024.Idx → EReal)
    = shapeCast S4096x1024 (m ((c : Thread nD τ).loc main_arg0) : S2x2048x1024.Idx → EReal) shapeCasts_S2x2048x1024_S4096x1024 := by
  dsimp only [V1, W1, hostOps0]; after_results; rfl

/-- The fused weight matrix is the three transposed weight matrices side by side. -/
theorem V1_v5_eq : (V1 m ρ c main_v5 : S1024x3072.Idx → EReal)
    = (truncf .bf16 (concatenate S1024x3072 1
        [⟨S1024x1024, transpose S1024x1024 [1, 0] (m ((c : Thread nD τ).loc main_arg1) : S1024x1024.Idx → EReal) transposes_S1024x1024_S1024x1024_1_0⟩,
         ⟨S1024x1024, transpose S1024x1024 [1, 0] (m ((c : Thread nD τ).loc main_arg2) : S1024x1024.Idx → EReal) transposes_S1024x1024_S1024x1024_1_0⟩,
         ⟨S1024x1024, transpose S1024x1024 [1, 0] (m ((c : Thread nD τ).loc main_arg3) : S1024x1024.Idx → EReal) transposes_S1024x1024_S1024x1024_1_0⟩]
        concatenates_S1024x1024_S1024x1024_S1024x1024_S1024x3072_d1 : FVec Ideal S1024x3072 .f32) bitsLt_bf16_f32 : FVec Ideal S1024x3072 .bf16) := by
  dsimp only [V1, W1, hostOps0]
  simp only [StableHlo.after_cons, StableHlo.after_nil]
  rw [StableHlo.unary_result, nary3_result]
  repeat (first
    | rw [StableHlo.unary_result]
    | (rw [StableHlo.unary_result_ne]; rotate_left; decide)
    | (rw [StableHlo.reshape_result_ne]; rotate_left; decide))
  rfl

/-! ### The two input arrays read at an index -/

/-- Row `r` of the flattened input is position `r % 2048` of batch `r / 2048` of the first argument. -/
theorem V1_v0 (r : Fin 4096) (d : Fin 1024) :
    (V1 m ρ c main_v0 : S4096x1024.Idx → EReal) (ix2 r d)
      = (m ((c : Thread nD τ).loc main_arg0) : S2x2048x1024.Idx → EReal)
          (ix3 ⟨r.val / 2048, by omega⟩ ⟨r.val % 2048, by omega⟩ d) := by
  rw [V1_v0_eq]
  exact flatten_apply _ _ r d

/-- Columns `0 … 1023` of the fused weight matrix: entry `(d, e)` is entry `(e, d)` of the query weights. -/
theorem V1_v5_q (d e : Fin 1024) :
    (V1 m ρ c main_v5 : S1024x3072.Idx → EReal) (ix2 d ⟨e.val, by omega⟩)
      = (m ((c : Thread nD τ).loc main_arg1) : S1024x1024.Idx → EReal) (ix2 e d) := by
  rw [V1_v5_eq, truncf_apply]
  refine (concat3_apply_0 _ _ _ _ d e).trans ?_
  exact transpose_ix2_apply _ _ d e

/-- Columns `1024 … 2047`: entry `(d, 1024 + e)` is entry `(e, d)` of the key weights. -/
theorem V1_v5_k (d e : Fin 1024) :
    (V1 m ρ c main_v5 : S1024x3072.Idx → EReal) (ix2 d ⟨e.val + 1024, by omega⟩)
      = (m ((c : Thread nD τ).loc main_arg2) : S1024x1024.Idx → EReal) (ix2 e d) := by
  rw [V1_v5_eq, truncf_apply]
  refine (concat3_apply_1 _ _ _ _ d e).trans ?_
  exact transpose_ix2_apply _ _ d e

/-- Columns `2048 … 3071`: entry `(d, 2048 + e)` is entry `(e, d)` of the value weights. -/
theorem V1_v5_v (d e : Fin 1024) :
    (V1 m ρ c main_v5 : S1024x3072.Idx → EReal) (ix2 d ⟨e.val + 2048, by omega⟩)
      = (m ((c : Thread nD τ).loc main_arg3) : S1024x1024.Idx → EReal) (ix2 e d) := by
  rw [V1_v5_eq, truncf_apply]
  refine (concat3_apply_2 _ _ _ _ d e).trans ?_
  exact transpose_ix2_apply _ _ d e

/-! ### The same, by coordinates -/

theorem V1_v0' (r : Fin 4096) (d : Fin 1024) :
    Cert.MHA.flat2 (V1 m ρ c main_v0) r d
      = Cert.MHA.curry3 (m ((c : Thread nD τ).loc main_arg0)) ⟨r.val / 2048, by omega⟩ ⟨r.val % 2048, by omega⟩ d :=
  V1_v0 m ρ c r d

theorem V1_v5_q' (d e : Fin 1024) :
    Cert.MHA.wide2 (V1 m ρ c main_v5) d ⟨e.val, by omega⟩ = Cert.MHA.curry2 (m ((c : Thread nD τ).loc main_arg1)) e d :=
  V1_v5_q m ρ c d e

theorem V1_v5_k' (d e : Fin 1024) :
    Cert.MHA.wide2 (V1 m ρ c main_v5) d ⟨e.val + 1024, by omega⟩ = Cert.MHA.curry2 (m ((c : Thread nD τ).loc main_arg2)) e d :=
  V1_v5_k m ρ c d e

theorem V1_v5_v' (d e : Fin 1024) :
    Cert.MHA.wide2 (V1 m ρ c main_v5) d ⟨e.val + 2048, by omega⟩ = Cert.MHA.curry2 (m ((c : Thread nD τ).loc main_arg3)) e d :=
  V1_v5_v m ρ c d e

/-! ### The arguments, as the region's entry contents -/

theorem V1_arg0 : V1 m ρ c main_arg0 = m ((c : Thread nD τ).loc main_arg0) := W1_arg0 m ρ c
theorem V1_arg1 : V1 m ρ c main_arg1 = m ((c : Thread nD τ).loc main_arg1) := W1_arg1 m ρ c
theorem V1_arg2 : V1 m ρ c main_arg2 = m ((c : Thread nD τ).loc main_arg2) := W1_arg2 m ρ c
theorem V1_arg3 : V1 m ρ c main_arg3 = m ((c : Thread nD τ).loc main_arg3) := W1_arg3 m ρ c
theorem V1_arg4 : V1 m ρ c main_arg4 = m ((c : Thread nD τ).loc main_arg4) := W1_arg4 m ρ c
theorem V1_arg5 : V1 m ρ c main_arg5 = m ((c : Thread nD τ).loc main_arg5) := W1_arg5 m ρ c

end Cert.KernelIdeal.RunValue
end
-- ==== Proof.HostStretch2.lean ====
/-
  The second host stretch of the attention program, read at an index.

  Between the projection region and the attention region the host lays the three projected arrays [4096, 1024]
  back out as [2, 2048, 1024] (row b · 2048 + s of the flat array is position s of sequence b), transposes the
  output weight matrix and changes its format (the identity on extended reals), and lays the bias vector out as a
  one-row matrix. Each result is read here at an index given by coordinates, as an entry of the array it was made
  from; the output weights and the bias are still the launch contents, since nothing before writes them.
-/
import proofs.«179820_j79611513799233_2_alg».proof.Proof.Spec
import proofs.«179820_j79611513799233_2_alg».proof.Proof.Entries
import proofs.«179820_j79611513799233_2_alg».proof.Proof.Blocks
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.RunValue

open Cert.KernelIdeal Cert.KernelIdeal.Gen Cert.KernelIdeal.Run Cert.MHA Idealize.ShloMosaic Idealize.ShloMosaic.TcCoe
  Idealize.ShloMosaic.ValueIdx Idealize.SL.Sem

variable (m : (ℓ : Loc nD τ sig) → Buf (Elt Ideal) ℓ) (ρ : Dev nD → PrngReg) (c : Dev nD)

/-! ## The three projected arrays laid back out by sequence and position -/

/-- Entry (b, s, e) of a flat array [4096, 1024] laid out as [2, 2048, 1024] is its entry (b · 2048 + s, e). -/
private theorem unflatten_apply (X : S4096x1024.Idx → EReal) (b : Fin 2) (s : Fin 2048) (e : Fin 1024) :
    shapeCast S2x2048x1024 X shapeCasts_S4096x1024_S2x2048x1024 (ix3 b s e) = X (ix2 ⟨b.val * 2048 + s.val, by omega⟩ e) :=
  shapeCast_apply X _ _ _ (by rw [Shape.rowMajor_val_two, Shape.rowMajor_val_three]; rfl)

theorem V3_v7 (b : Fin 2) (s : Fin 2048) (e : Fin 1024) :
    (V3 m ρ c main_v7 : S2x2048x1024.Idx → EReal) (ix3 b s e)
      = (V2 m ρ c main_v6_0 : S4096x1024.Idx → EReal) (ix2 ⟨b.val * 2048 + s.val, by omega⟩ e) := by
  have h : (V3 m ρ c main_v7 : S2x2048x1024.Idx → EReal)
      = shapeCast S2x2048x1024 (V2 m ρ c main_v6_0 : S4096x1024.Idx → EReal) shapeCasts_S4096x1024_S2x2048x1024 := by
    show StableHlo.after hostOps1 (W2 m ρ c) (Proc.devRef .tc main_v7) = _
    after_results
    rfl
  rw [h]
  exact unflatten_apply _ b s e

theorem V3_v8 (b : Fin 2) (s : Fin 2048) (e : Fin 1024) :
    (V3 m ρ c main_v8 : S2x2048x1024.Idx → EReal) (ix3 b s e)
      = (V2 m ρ c main_v6_1 : S4096x1024.Idx → EReal) (ix2 ⟨b.val * 2048 + s.val, by omega⟩ e) := by
  have h : (V3 m ρ c main_v8 : S2x2048x1024.Idx → EReal)
      = shapeCast S2x2048x1024 (V2 m ρ c main_v6_1 : S4096x1024.Idx → EReal) shapeCasts_S4096x1024_S2x2048x1024 := by
    show StableHlo.after hostOps1 (W2 m ρ c) (Proc.devRef .tc main_v8) = _
    after_results
    rfl
  rw [h]
  exact unflatten_apply _ b s e

theorem V3_v9 (b : Fin 2) (s : Fin 2048) (e : Fin 1024) :
    (V3 m ρ c main_v9 : S2x2048x1024.Idx → EReal) (ix3 b s e)
      = (V2 m ρ c main_v6_2 : S4096x1024.Idx → EReal) (ix2 ⟨b.val * 2048 + s.val, by omega⟩ e) := by
  have h : (V3 m ρ c main_v9 : S2x2048x1024.Idx → EReal)
      = shapeCast S2x2048x1024 (V2 m ρ c main_v6_2 : S4096x1024.Idx → EReal) shapeCasts_S4096x1024_S2x2048x1024 := by
    show StableHlo.after hostOps1 (W2 m ρ c) (Proc.devRef .tc main_v9) = _
    after_results
    rfl
  rw [h]
  exact unflatten_apply _ b s e

/-! ## The output weights and the bias -/

/-- The output weight matrix is still the launch contents when the second stretch starts: the projection region stages
    other arrays, and no operation of the first stretch writes it. -/
private theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

/-- So is the bias vector. -/
private theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

/-- The matrix the attention region multiplies by is the transpose of the output weights as launched: entry (d, e)
    is the weights' entry (e, d); the change of format is the identity on extended reals. -/
theorem V3_v11 (d e : Fin 1024) :
    (V3 m ρ c main_v11 : S1024x1024.Idx → EReal) (ix2 d e)
      = (m ((c : Thread nD τ).loc main_arg4) : S1024x1024.Idx → EReal) (ix2 e d) := by
  have h : (V3 m ρ c main_v11 : S1024x1024.Idx → EReal)
      = truncf (F := Ideal) .bf16 (transpose S1024x1024 [1, 0] (W2 m ρ c (Proc.devRef .tc main_arg4) : S1024x1024.Idx → EReal)
          transposes_S1024x1024_S1024x1024_1_0) bitsLt_bf16_f32 := by
    show StableHlo.after hostOps1 (W2 m ρ c) (Proc.devRef .tc main_v11) = _
    after_results
  rw [h, W2_arg4]
  exact transpose_ix2_apply _ transposes_S1024x1024_S1024x1024_1_0 d e

/-- The bias row: entry (0, e) of the one-row matrix is the bias vector's entry e as launched. -/
theorem V3_v12 (e : Fin 1024) :
    (V3 m ρ c main_v12 : S1x1024.Idx → EReal) (ix2 (0 : Fin 1) e)
      = (m ((c : Thread nD τ).loc main_arg5) : S1024.Idx → EReal) (ix1 e) := by
  have h : (V3 m ρ c main_v12 : S1x1024.Idx → EReal)
      = shapeCast S1x1024 (W2 m ρ c (Proc.devRef .tc main_arg5) : S1024.Idx → EReal) shapeCasts_S1024_S1x1024 := by
    show StableHlo.after hostOps1 (W2 m ρ c) (Proc.devRef .tc main_v12) = _
    after_results
    rfl
  rw [h, W2_arg5]
  exact shapeCast_a_1a_apply _ shapeCasts_S1024_S1x1024 0 e

end Cert.KernelIdeal.RunValue

end
-- ==== Proof.KernelValue.lean ====
/-
  The kernel program's result array, index by index, as one function of the six argument arrays.

  The result is what the attention region writes back: the output projection and bias of the per-head contexts
  computed from the q, k, v arrays the region is entered with.  Those are the projection region's three output arrays
  reshaped from [4096, 1024] to [2, 2048, 1024] (row b·2048 + s is position s of batch b), and the projection region's
  outputs are the products of the flattened input with the three transposed weight matrices laid side by side: column
  e of the q slice pairs row e of Wq, and likewise k and v at column offsets 1024 and 2048.  The output weights reach
  the attention region transposed and the bias as a row.  Put together this is the specification's `kernelSpec`.
-/
import proofs.«179820_j79611513799233_2_alg».proof.Proof.Spec
import proofs.«179820_j79611513799233_2_alg».proof.Proof.Entries
import proofs.«179820_j79611513799233_2_alg».proof.Proof.Blocks
import proofs.«179820_j79611513799233_2_alg».proof.Proof.AttnValue
import proofs.«179820_j79611513799233_2_alg».proof.Proof.ProjValue
import proofs.«179820_j79611513799233_2_alg».proof.Proof.HostStretch
import proofs.«179820_j79611513799233_2_alg».proof.Proof.HostStretch2
import Idealize.ShloMosaic.Lib.ValueIdx

noncomputable section

namespace Cert.KernelIdeal.RunValue

open Cert.KernelIdeal Cert.KernelIdeal.Gen Cert.KernelIdeal.Run Cert.MHA
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- Row b·2048 + s of a flattened array is position s of batch b. -/
theorem row_split (b : Fin 2) (s : Fin 2048) (R : Fin 4096) (hR : R.val = b.val * 2048 + s.val) :
    (⟨R.val / 2048, by omega⟩ : Fin 2) = b ∧ (⟨R.val % 2048, by omega⟩ : Fin 2048) = s := by
  constructor <;> apply Fin.ext <;> simp only <;> omega

/-- The q array the attention region is entered with is the input's projection by Wq. -/
theorem q_entry : curry3 (V3 m ρ c main_v7 : S2x2048x1024.Idx → EReal)
    = proj (curry3 (m ((c : Thread nD τ).loc main_arg0) : S2x2048x1024.Idx → EReal)) (curry2 (m ((c : Thread nD τ).loc main_arg1) : S1024x1024.Idx → EReal)) := by
  funext b s e
  show (V3 m ρ c main_v7 : S2x2048x1024.Idx → EReal) (ix3 b s e) = _
  rw [V3_v7]
  show flat2 (W2 m ρ c (Proc.devRef .tc (Pipeline.arrRef spec0 2))) ⟨b.val * 2048 + s.val, by omega⟩ e = _
  rw [W2_arr, projQ]
  unfold proj
  obtain ⟨h1, h2⟩ := row_split b s ⟨b.val * 2048 + s.val, by omega⟩ rfl
  refine Finset.sum_congr rfl fun d _ => ?_
  rw [V1_v0', V1_v5_q', h1, h2]

/-- The k array likewise, by Wk. -/
theorem k_entry : curry3 (V3 m ρ c main_v8 : S2x2048x1024.Idx → EReal)
    = proj (curry3 (m ((c : Thread nD τ).loc main_arg0) : S2x2048x1024.Idx → EReal)) (curry2 (m ((c : Thread nD τ).loc main_arg2) : S1024x1024.Idx → EReal)) := by
  funext b s e
  show (V3 m ρ c main_v8 : S2x2048x1024.Idx → EReal) (ix3 b s e) = _
  rw [V3_v8]
  show flat2 (W2 m ρ c (Proc.devRef .tc (Pipeline.arrRef spec0 3))) ⟨b.val * 2048 + s.val, by omega⟩ e = _
  rw [W2_arr, projK]
  unfold proj
  obtain ⟨h1, h2⟩ := row_split b s ⟨b.val * 2048 + s.val, by omega⟩ rfl
  refine Finset.sum_congr rfl fun d _ => ?_
  rw [V1_v0', V1_v5_k', h1, h2]

/-- The v array likewise, by Wv. -/
theorem v_entry : curry3 (V3 m ρ c main_v9 : S2x2048x1024.Idx → EReal)
    = proj (curry3 (m ((c : Thread nD τ).loc main_arg0) : S2x2048x1024.Idx → EReal)) (curry2 (m ((c : Thread nD τ).loc main_arg3) : S1024x1024.Idx → EReal)) := by
  funext b s e
  show (V3 m ρ c main_v9 : S2x2048x1024.Idx → EReal) (ix3 b s e) = _
  rw [V3_v9]
  show flat2 (W2 m ρ c (Proc.devRef .tc (Pipeline.arrRef spec0 4))) ⟨b.val * 2048 + s.val, by omega⟩ e = _
  rw [W2_arr, projV]
  unfold proj
  obtain ⟨h1, h2⟩ := row_split b s ⟨b.val * 2048 + s.val, by omega⟩ rfl
  refine Finset.sum_congr rfl fun d _ => ?_
  rw [V1_v0', V1_v5_v', h1, h2]

/-- THE KERNEL'S VALUE: the result array at (b, s, e) is the specification's kernel function of the argument arrays. -/
theorem kernel_value (b : Fin 2) (s : Fin 2048) (e : Fin 1024) :
    ((dat1 (V3 m ρ) c).arrAt 5 cfg1.N : S2x2048x1024.Idx → EReal) (ix3 b s e)
      = kernelSpec (curry3 (m ((c : Thread nD τ).loc main_arg0) : S2x2048x1024.Idx → EReal))
          (curry2 (m ((c : Thread nD τ).loc main_arg1) : S1024x1024.Idx → EReal)) (curry2 (m ((c : Thread nD τ).loc main_arg2) : S1024x1024.Idx → EReal))
          (curry2 (m ((c : Thread nD τ).loc main_arg3) : S1024x1024.Idx → EReal)) (curry2 (m ((c : Thread nD τ).loc main_arg4) : S1024x1024.Idx → EReal))
          (curry1 (m ((c : Thread nD τ).loc main_arg5) : S1024.Idx → EReal)) b s e := by
  rw [attn_final, q_entry, k_entry, v_entry]
  unfold kernelSpec
  have hwo : (fun e' d => (V3 m ρ c main_v11 : S1024x1024.Idx → EReal) (ix2 d e')) = curry2 (m ((c : Thread nD τ).loc main_arg4) : S1024x1024.Idx → EReal) := by
    funext e' d; exact V3_v11 m ρ c d e'
  have hbo : (fun e' => (V3 m ρ c main_v12 : S1x1024.Idx → EReal) (ix2 (0 : Fin 1) e')) = curry1 (m ((c : Thread nD τ).loc main_arg5) : S1024.Idx → EReal) := by
    funext e'; exact V3_v12 m ρ c e'
  rw [hwo, hbo]

end Cert.KernelIdeal.RunValue

end
-- ==== Proof.RefValue.lean ====
/-
  The reference program, read at an index, is the attention function of Spec.lean.

  The program is a chain of host operations: three projections (a contraction over the input feature, a reshape
  of the 1024 columns into 16 heads of 64 lanes, a transpose to put the head before the position), the scores (a
  batched contraction over the lane), their division by 8, the row maximum, the exponentials, the row total, the
  weights' division by the total, the batched contraction with `v` over the key position, the transpose and reshape
  back to 1024 columns, the output projection and the bias.  Each stage is read at explicit coordinates, outermost
  first, until the arguments are reached.
-/
import proofs.«179820_j79611513799233_2_alg».proof.Proof.Spec
import proofs.«179820_j79611513799233_2_alg».proof.Proof.Gen.ReferenceIdeal.Read

noncomputable section

open scoped BigOperators

namespace Cert.MHA.Reference

open Idealize.ShloMosaic Idealize.ShloMosaic.ValueIdx Cert.ReferenceIdeal Cert.ReferenceIdeal.Read Cert.MHA

/-- The contents of an f32 buffer of shape [2, 2048, 1024], of shape [1024, 1024], of shape [1024]. -/
abbrev T3 : Type := (⟨S2x2048x1024, .f32⟩ : BufTy).Contents (Elt Ideal)
abbrev T2 : Type := (⟨S1024x1024, .f32⟩ : BufTy).Contents (Elt Ideal)
abbrev T1 : Type := (⟨S1024, .f32⟩ : BufTy).Contents (Elt Ideal)

/-! ## The projections

A contraction of `x` with a weight matrix over the input feature is `proj`. -/

theorem v0_at (x0 : T3) (x1 : T2) (b : Fin 2) (s : Fin 2048) (e : Fin 1024) :
    val_main_v0 (F := Ideal) x0 x1 (ix3 b s e) = proj (curry3 x0) (curry2 x1) b s e := by
  rw [val_main_v0_apply]
  unfold proj
  refine Finset.sum_congr rfl fun k _ => ?_
  have el : lidx_main_v0 (ix3 b s e) k = ix3 b s k := funext fun a => Fin.ext (by
    match a with | ⟨0, _⟩ => rfl | ⟨1, _⟩ => rfl | ⟨2, _⟩ => rfl)
  have er : ridx_main_v0 (ix3 b s e) k = ix2 e k := funext fun a => Fin.ext (by
    match a with | ⟨0, _⟩ => rfl | ⟨1, _⟩ => rfl)
  rw [el, er]

/-- The projection split into heads and transposed: entry (b, h, s, j) is column `h * 64 + j` at (b, s). -/
theorem v2_at (x0 : T3) (x1 : T2) (b : Fin 2) (h : Fin 16) (s : Fin 2048) (j : Fin 64) :
    val_main_v2 (F := Ideal) x0 x1 (ix4 b h s j) = proj (curry3 x0) (curry2 x1) b s (hcol h j) := by
  rw [val_main_v2_apply, val_main_v1_apply, ← v0_at]
  refine congrArg _ (funext fun a => Fin.ext ?_)
  have hb := b.isLt; have hh := h.isLt; have hs := s.isLt; have hj := j.isLt
  match a with
  | ⟨0, _⟩ => show (((b.val * 2048 + s.val) * 16 + h.val) * 64 + j.val) / 2097152 = b.val; omega
  | ⟨1, _⟩ => show (((b.val * 2048 + s.val) * 16 + h.val) * 64 + j.val) / 1024 % 2048 = s.val; omega
  | ⟨2, _⟩ => show (((b.val * 2048 + s.val) * 16 + h.val) * 64 + j.val) % 1024 = h.val * 64 + j.val; omega

theorem v3_at (x0 : T3) (x2 : T2) (b : Fin 2) (s : Fin 2048) (e : Fin 1024) :
    val_main_v3 (F := Ideal) x0 x2 (ix3 b s e) = proj (curry3 x0) (curry2 x2) b s e := by
  rw [val_main_v3_apply]
  unfold proj
  refine Finset.sum_congr rfl fun k _ => ?_
  have el : lidx_main_v3 (ix3 b s e) k = ix3 b s k := funext fun a => Fin.ext (by
    match a with | ⟨0, _⟩ => rfl | ⟨1, _⟩ => rfl | ⟨2, _⟩ => rfl)
  have er : ridx_main_v3 (ix3 b s e) k = ix2 e k := funext fun a => Fin.ext (by
    match a with | ⟨0, _⟩ => rfl | ⟨1, _⟩ => rfl)
  rw [el, er]

/-- The projection split into heads and transposed: entry (b, h, s, j) is column `h * 64 + j` at (b, s). -/
theorem v5_at (x0 : T3) (x2 : T2) (b : Fin 2) (h : Fin 16) (s : Fin 2048) (j : Fin 64) :
    val_main_v5 (F := Ideal) x0 x2 (ix4 b h s j) = proj (curry3 x0) (curry2 x2) b s (hcol h j) := by
  rw [val_main_v5_apply, val_main_v4_apply, ← v3_at]
  refine congrArg _ (funext fun a => Fin.ext ?_)
  have hb := b.isLt; have hh := h.isLt; have hs := s.isLt; have hj := j.isLt
  match a with
  | ⟨0, _⟩ => show (((b.val * 2048 + s.val) * 16 + h.val) * 64 + j.val) / 2097152 = b.val; omega
  | ⟨1, _⟩ => show (((b.val * 2048 + s.val) * 16 + h.val) * 64 + j.val) / 1024 % 2048 = s.val; omega
  | ⟨2, _⟩ => show (((b.val * 2048 + s.val) * 16 + h.val) * 64 + j.val) % 1024 = h.val * 64 + j.val; omega

theorem v6_at (x0 : T3) (x3 : T2) (b : Fin 2) (s : Fin 2048) (e : Fin 1024) :
    val_main_v6 (F := Ideal) x0 x3 (ix3 b s e) = proj (curry3 x0) (curry2 x3) b s e := by
  rw [val_main_v6_apply]
  unfold proj
  refine Finset.sum_congr rfl fun k _ => ?_
  have el : lidx_main_v6 (ix3 b s e) k = ix3 b s k := funext fun a => Fin.ext (by
    match a with | ⟨0, _⟩ => rfl | ⟨1, _⟩ => rfl | ⟨2, _⟩ => rfl)
  have er : ridx_main_v6 (ix3 b s e) k = ix2 e k := funext fun a => Fin.ext (by
    match a with | ⟨0, _⟩ => rfl | ⟨1, _⟩ => rfl)
  rw [el, er]

/-- The projection split into heads and transposed: entry (b, h, s, j) is column `h * 64 + j` at (b, s). -/
theorem v8_at (x0 : T3) (x3 : T2) (b : Fin 2) (h : Fin 16) (s : Fin 2048) (j : Fin 64) :
    val_main_v8 (F := Ideal) x0 x3 (ix4 b h s j) = proj (curry3 x0) (curry2 x3) b s (hcol h j) := by
  rw [val_main_v8_apply, val_main_v7_apply, ← v6_at]
  refine congrArg _ (funext fun a => Fin.ext ?_)
  have hb := b.isLt; have hh := h.isLt; have hs := s.isLt; have hj := j.isLt
  match a with
  | ⟨0, _⟩ => show (((b.val * 2048 + s.val) * 16 + h.val) * 64 + j.val) / 2097152 = b.val; omega
  | ⟨1, _⟩ => show (((b.val * 2048 + s.val) * 16 + h.val) * 64 + j.val) / 1024 % 2048 = s.val; omega
  | ⟨2, _⟩ => show (((b.val * 2048 + s.val) * 16 + h.val) * 64 + j.val) % 1024 = h.val * 64 + j.val; omega

/-! ## The scores and their row maximum -/

section Scores

variable (x0 : T3) (x1 x2 : T2)

/-- The query and key projections by coordinates. -/
abbrev Q : Arr3 := proj (curry3 x0) (curry2 x1)
abbrev K : Arr3 := proj (curry3 x0) (curry2 x2)

/-- The batched contraction over the lane is the score. -/
theorem v9_at (b : Fin 2) (h : Fin 16) (s t : Fin 2048) :
    val_main_v9 (F := Ideal) x0 x1 x2 (ix4 b h s t) = score (Q x0 x1) (K x0 x2) b h s t := by
  rw [val_main_v9_apply]
  unfold score
  refine Finset.sum_congr rfl fun k _ => ?_
  have el : lidx_main_v9 (ix4 b h s t) k = ix4 b h s k := funext fun a => Fin.ext (by
    match a with | ⟨0, _⟩ => rfl | ⟨1, _⟩ => rfl | ⟨2, _⟩ => rfl | ⟨3, _⟩ => rfl)
  have er : ridx_main_v9 (ix4 b h s t) k = ix4 b h t k := funext fun a => Fin.ext (by
    match a with | ⟨0, _⟩ => rfl | ⟨1, _⟩ => rfl | ⟨2, _⟩ => rfl | ⟨3, _⟩ => rfl)
  rw [el, er, v2_at, v5_at]

/-- The score divided by 8. -/
def zrow (q k : Arr3) (b : Fin 2) (h : Fin 16) (s : Fin 2048) : Fin 2048 → EReal :=
  fun t => Ideal.div (score q k b h s t) cEight

theorem v11_at (b : Fin 2) (h : Fin 16) (s t : Fin 2048) :
    val_main_v11 (F := Ideal) x0 x1 x2 (ix4 b h s t) = zrow (Q x0 x1) (K x0 x2) b h s t := by
  rw [val_main_v11_apply, v9_at, val_main_v10_apply, val_main_cst_apply]
  rfl

/-- A reduced index (b, h, s) with the key position `k` put back on the last axis is (b, h, s, k). -/
theorem lift_ix3 (hr : S2x16x2048x2048.Reduces [3] S2x16x2048) (b : Fin 2) (h : Fin 16) (s : Fin 2048)
    (k : Fin (S2x16x2048x2048.size 3)) :
    hr.lift (ix3 b h s) k = ix4 b h s (⟨k.val, k.isLt⟩ : Fin 2048) := by
  funext c; apply Fin.ext
  match c with
  | ⟨0, _⟩ => rfl
  | ⟨1, _⟩ => rfl
  | ⟨2, _⟩ => rfl
  | ⟨3, _⟩ => rfl

/-- The reduction with a maximum body over the key position, from −∞: the fold of `max` over the row. -/
theorem v12_at (b : Fin 2) (h : Fin 16) (s : Fin 2048) :
    val_main_v12 (F := Ideal) x0 x1 x2 (ix3 b h s)
      = (Finset.univ : Finset (Fin 2048)).fold max cNegInf (zrow (Q x0 x1) (K x0 x2) b h s) := by
  have hr : S2x16x2048x2048.Reduces [3] S2x16x2048 := by decide
  unfold val_main_v12
  rw [Host.reduce_eq_fold_single FloatOps.maximumf _ _ Facts₀.reducesTo_S2x16x2048x2048_S2x16x2048_d3 hr Facts₀.h_S_]
  have hf : (val_main_v11 (F := Ideal) x0 x1 x2 ∘ hr.lift (ix3 b h s)) = zrow (Q x0 x1) (K x0 x2) b h s :=
    funext fun k => (congrArg (val_main_v11 (F := Ideal) x0 x1 x2) (lift_ix3 hr b h s k)).trans (v11_at x0 x1 x2 b h s _)
  rw [hf]
  rfl

/-- The row maximum, taken once more against −∞. -/
def mxrow (q k : Arr3) (b : Fin 2) (h : Fin 16) (s : Fin 2048) : EReal :=
  max cNegInf ((Finset.univ : Finset (Fin 2048)).fold max cNegInf (zrow q k b h s))

theorem v14_at (b : Fin 2) (h : Fin 16) (s : Fin 2048) :
    val_main_v14 (F := Ideal) x0 x1 x2 (ix3 b h s) = mxrow (Q x0 x1) (K x0 x2) b h s := by
  rw [val_main_v14_apply, v12_at, val_main_v13_apply, val_main_cst_1_apply]
  rfl

end Scores

/-! ## The weights and the context -/

section Softmax

variable (x0 : T3) (x1 x2 x3 : T2)

/-- The value projection by coordinates. -/
abbrev V : Arr3 := proj (curry3 x0) (curry2 x3)

/-- The row maximum broadcast back along the key position. -/
theorem v16_at (b : Fin 2) (h : Fin 16) (s t : Fin 2048) :
    val_main_v16 (F := Ideal) x0 x1 x2 (ix4 b h s t) = mxrow (Q x0 x1) (K x0 x2) b h s := by
  rw [val_main_v16_apply, val_main_v15_apply, ← v14_at]
  refine congrArg _ (funext fun a => Fin.ext ?_)
  match a with | ⟨0, _⟩ => rfl | ⟨1, _⟩ => rfl | ⟨2, _⟩ => rfl

/-- The exponential of the score less the row maximum. -/
def prow (q k : Arr3) (b : Fin 2) (h : Fin 16) (s : Fin 2048) : Fin 2048 → EReal :=
  fun t => Ideal.exp (zrow q k b h s t - mxrow q k b h s)

theorem v18_at (b : Fin 2) (h : Fin 16) (s t : Fin 2048) :
    val_main_v18 (F := Ideal) x0 x1 x2 (ix4 b h s t) = prow (Q x0 x1) (K x0 x2) b h s t := by
  rw [val_main_v18_apply, val_main_v17_apply, v11_at, v16_at]
  rfl

/-- The row's total weight, summed from 0. -/
def lrow (q k : Arr3) (b : Fin 2) (h : Fin 16) (s : Fin 2048) : EReal :=
  cZero + ∑ t : Fin 2048, prow q k b h s t

theorem v19_at (b : Fin 2) (h : Fin 16) (s : Fin 2048) :
    val_main_v19 (F := Ideal) x0 x1 x2 (ix3 b h s) = lrow (Q x0 x1) (K x0 x2) b h s := by
  rw [val_main_v19_apply, val_main_cst_2_apply]
  unfold lrow
  refine congrArg (fun y => cZero + y) (Finset.sum_congr rfl fun k _ => ?_)
  have e : idx_main_v19 (ix3 b h s) k = ix4 b h s k := funext fun a => Fin.ext (by
    match a with | ⟨0, _⟩ => rfl | ⟨1, _⟩ => rfl | ⟨2, _⟩ => rfl | ⟨3, _⟩ => rfl)
  rw [e, v18_at]

/-- The total broadcast back along the key position. -/
theorem v21_at (b : Fin 2) (h : Fin 16) (s t : Fin 2048) :
    val_main_v21 (F := Ideal) x0 x1 x2 (ix4 b h s t) = lrow (Q x0 x1) (K x0 x2) b h s := by
  rw [val_main_v21_apply, val_main_v20_apply, ← v19_at]
  refine congrArg _ (funext fun a => Fin.ext ?_)
  match a with | ⟨0, _⟩ => rfl | ⟨1, _⟩ => rfl | ⟨2, _⟩ => rfl

/-- Each weight divided by the row's total. -/
theorem v22_at (b : Fin 2) (h : Fin 16) (s t : Fin 2048) :
    val_main_v22 (F := Ideal) x0 x1 x2 (ix4 b h s t)
      = Ideal.div (prow (Q x0 x1) (K x0 x2) b h s t) (lrow (Q x0 x1) (K x0 x2) b h s) := by
  rw [val_main_v22_apply, v18_at, v21_at]
  rfl

/-- `ctxDivided` with its intermediate rows named. -/
theorem ctxDivided_eq (q k v : Arr3) (b : Fin 2) (s : Fin 2048) (h : Fin 16) (j : Fin 64) :
    ctxDivided cEight cNegInf cZero q k v b s h j
      = ∑ t : Fin 2048, Ideal.div (prow q k b h s t) (lrow q k b h s) * v b t (hcol h j) := rfl

/-- The batched contraction of the weights with `v` over the key position is the context. -/
theorem v23_at (b : Fin 2) (h : Fin 16) (s : Fin 2048) (j : Fin 64) :
    val_main_v23 (F := Ideal) x0 x1 x2 x3 (ix4 b h s j)
      = ctxDivided cEight cNegInf cZero (Q x0 x1) (K x0 x2) (V x0 x3) b s h j := by
  rw [val_main_v23_apply, ctxDivided_eq]
  refine Finset.sum_congr rfl fun k _ => ?_
  have el : lidx_main_v23 (ix4 b h s j) k = ix4 b h s k := funext fun a => Fin.ext (by
    match a with | ⟨0, _⟩ => rfl | ⟨1, _⟩ => rfl | ⟨2, _⟩ => rfl | ⟨3, _⟩ => rfl)
  have er : ridx_main_v23 (ix4 b h s j) k = ix4 b h k j := funext fun a => Fin.ext (by
    match a with | ⟨0, _⟩ => rfl | ⟨1, _⟩ => rfl | ⟨2, _⟩ => rfl | ⟨3, _⟩ => rfl)
  rw [el, er, v22_at, v8_at]

/-- The context transposed and reshaped back to 1024 columns: column `d` is lane `d % 64` of head `d / 64`. -/
theorem v25_at (b : Fin 2) (s : Fin 2048) (d : Fin 1024) :
    val_main_v25 (F := Ideal) x0 x1 x2 x3 (ix3 b s d)
      = ctxDivided cEight cNegInf cZero (Q x0 x1) (K x0 x2) (V x0 x3) b s (headOf d) (laneOf d) := by
  rw [val_main_v25_apply, val_main_v24_apply, ← v23_at]
  refine congrArg _ (funext fun a => Fin.ext ?_)
  have hb := b.isLt; have hs := s.isLt; have hd := d.isLt
  match a with
  | ⟨0, _⟩ => show ((b.val * 2048 + s.val) * 1024 + d.val) / 2097152 = b.val; omega
  | ⟨1, _⟩ => show ((b.val * 2048 + s.val) * 1024 + d.val) / 64 % 16 = d.val / 64; omega
  | ⟨2, _⟩ => show ((b.val * 2048 + s.val) * 1024 + d.val) / 1024 % 2048 = s.val; omega
  | ⟨3, _⟩ => show ((b.val * 2048 + s.val) * 1024 + d.val) % 64 = d.val % 64; omega

end Softmax

/-! ## The output projection and the bias -/

/-- The bias broadcast over batch and position. -/
theorem v28_at (x5 : T1) (b : Fin 2) (s : Fin 2048) (e : Fin 1024) :
    val_main_v28 (F := Ideal) x5 (ix3 b s e) = curry1 x5 e := by
  rw [val_main_v28_apply, val_main_v27_apply]
  refine congrArg x5 (funext fun a => Fin.ext ?_)
  match a with | ⟨0, _⟩ => rfl

/-- The contraction of the context with `Wo` over the column. -/
theorem v26_at (x0 : T3) (x1 x2 x3 x4 : T2) (b : Fin 2) (s : Fin 2048) (e : Fin 1024) :
    val_main_v26 (F := Ideal) x0 x1 x2 x3 x4 (ix3 b s e)
      = ∑ d : Fin 1024, ctxDivided cEight cNegInf cZero (Q x0 x1) (K x0 x2) (V x0 x3) b s (headOf d) (laneOf d)
          * curry2 x4 e d := by
  rw [val_main_v26_apply]
  refine Finset.sum_congr rfl fun k _ => ?_
  have el : lidx_main_v26 (ix3 b s e) k = ix3 b s k := funext fun a => Fin.ext (by
    match a with | ⟨0, _⟩ => rfl | ⟨1, _⟩ => rfl | ⟨2, _⟩ => rfl)
  have er : ridx_main_v26 (ix3 b s e) k = ix2 e k := funext fun a => Fin.ext (by
    match a with | ⟨0, _⟩ => rfl | ⟨1, _⟩ => rfl)
  rw [el, er, v25_at]

/-- The reference's result, read at (b, s, e), is `referenceSpec` of the arguments by coordinates. -/
theorem reference_value (x0 : (⟨Cert.ReferenceIdeal.S2x2048x1024, .f32⟩ : BufTy).Contents (Elt Ideal)) (x1 x2 x3 x4 : (⟨Cert.ReferenceIdeal.S1024x1024, .f32⟩ : BufTy).Contents (Elt Ideal)) (x5 : (⟨Cert.ReferenceIdeal.S1024, .f32⟩ : BufTy).Contents (Elt Ideal)) (b : Fin 2) (s : Fin 2048) (e : Fin 1024) :
    Cert.ReferenceIdeal.Read.val_main_v29 x0 x1 x2 x3 x4 x5 (ix3 b s e)
      = Cert.MHA.referenceSpec (curry3 x0) (curry2 x1) (curry2 x2) (curry2 x3) (curry2 x4) (curry1 x5) b s e := by
  rw [val_main_v29_apply, v26_at, v28_at]
  rfl

end Cert.MHA.Reference

end
-- ==== Proof.SoftmaxLaw.lean ====
/-
  The softmax law on the extended reals: with real queries, keys and values, scaling the scores by 1/8 and dividing
  the weighted sum of the values by the row's total weight gives the same context as dividing the scores by 8 and
  dividing each weight by the row's total before the sum.  Pure mathematics: no program is imported.
-/
import proofs.«179820_j79611513799233_2_alg».proof.Proof.Spec
import Idealize.ShloMosaic.PureOps.Ideal
import Idealize.ShloMosaic.PureOps.Ideal.Laws

noncomputable section

open scoped BigOperators

namespace Cert.MHA

open Idealize.ShloMosaic

/-! ### The four literals -/

/-- The pattern `0x3E000000` denotes the real `1/8`. -/
theorem cEighth_eq : cEighth = ((1 / 8 : ℝ) : EReal) := by
  simp [Ideal.ofBits, Ideal.ieee, -EReal.coe_mul]; norm_num

/-- The pattern `0x41000000` denotes the real `8`. -/
theorem cEight_eq : cEight = ((8 : ℝ) : EReal) := by
  simp [Ideal.ofBits, Ideal.ieee, -EReal.coe_mul]; norm_num

/-- The pattern `0xFF800000` denotes `−∞`. -/
theorem cNegInf_eq : cNegInf = ⊥ := by
  simp [Ideal.ofBits, Ideal.ieee]

/-- The pattern `0x00000000` denotes `0`. -/
theorem cZero_eq : cZero = 0 := Ideal.ofBits_zero_f32

/-! ### Real numbers among the extended reals -/

theorem isReal_coe (r : ℝ) : IsReal (r : EReal) := ⟨r, rfl⟩

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem isReal_sum_mul {ι : Type} [Fintype ι] {f g : ι → EReal} (hf : ∀ i, IsReal (f i)) (hg : ∀ i, IsReal (g i)) :
    IsReal (∑ i, f i * g i) := by
  choose F hF using hf
  choose G hG using hg
  refine ⟨∑ i, F i * G i, ?_⟩
  rw [coe_finset_sum]
  exact Finset.sum_congr rfl (fun i _ => by rw [hF i, hG i, EReal.coe_mul])

/-- A projection of a real array by a real matrix is real. -/
theorem isReal_proj {x : Arr3} {W : Mat} (hx : ∀ b s d, IsReal (x b s d)) (hW : ∀ e d, IsReal (W e d)) :
    ∀ b s e, IsReal (proj x W b s e) := by
  intro b s e
  unfold proj
  exact isReal_sum_mul (fun d => hx b s d) (fun d => hW e d)

/-- A score of real queries against real keys is real. -/
theorem isReal_score {q k : Arr3} (hq : ∀ b s d, IsReal (q b s d)) (hk : ∀ b s d, IsReal (k b s d))
    (b : Fin 2) (h : Fin 16) (s t : Fin 2048) : IsReal (score q k b h s t) := by
  unfold score
  exact isReal_sum_mul (fun j => hq b s (hcol h j)) (fun j => hk b t (hcol h j))

/-! ### The running maximum of real numbers -/

theorem coe_max (a b : ℝ) : max (a : EReal) (b : EReal) = ((max a b : ℝ) : EReal) :=
  (EReal.coe_strictMono.monotone.map_max).symm

/-- The maximum, started from `−∞`, of the real numbers `f t` over a nonempty finite set is a real number. -/
theorem fold_max_real {ι : Type} (f : ι → ℝ) (s : Finset ι) (hs : s.Nonempty) :
    ∃ m : ℝ, s.fold max (⊥ : EReal) (fun t => (f t : EReal)) = (m : EReal) := by
  induction hs using Finset.Nonempty.cons_induction with
  | singleton a =>
    refine ⟨f a, ?_⟩
    rw [Finset.fold_singleton]
    exact max_eq_left bot_le
  | cons a s ha hs ih =>
    obtain ⟨m, hm⟩ := ih
    refine ⟨max (f a) m, ?_⟩
    rw [Finset.fold_cons, hm, coe_max]

/-! ### The law on positive real weights -/

/-- With positive real weights `P` and real values `V`, dividing the weighted sum by the total weight is summing with
    each weight divided by the total. -/
theorem div_sum_eq_sum_div {ι : Type} [Fintype ι] [Nonempty ι] (P V : ι → ℝ) (hP : ∀ t, 0 < P t) :
    Ideal.div (∑ t, (P t : EReal) * (V t : EReal)) (∑ t, (P t : EReal))
      = ∑ t, Ideal.div (P t : EReal) (∑ t, (P t : EReal)) * (V t : EReal) := by
  have hpos : 0 < ∑ t, P t := Finset.sum_pos (fun t _ => hP t) Finset.univ_nonempty
  have hL : ∑ t, (P t : EReal) = ((∑ t, P t : ℝ) : EReal) := (coe_finset_sum _ _).symm
  rw [hL]
  simp only [Ideal.div_coe hpos.ne', ← EReal.coe_mul, ← coe_finset_sum]
  rw [EReal.coe_eq_coe_iff, Finset.sum_mul]
  exact Finset.sum_congr rfl (fun t _ => by ring)

/-- The softmax law over a nonempty finite index set, for real scores `sc` and real values `vv`. -/
theorem softmax_law {ι : Type} [Fintype ι] [Nonempty ι] (sc vv : ι → EReal)
    (hsc : ∀ t, IsReal (sc t)) (hvv : ∀ t, IsReal (vv t)) :
    Ideal.div
        (∑ t, Ideal.exp (sc t * cEighth - (Finset.univ : Finset ι).fold max cNegInf (fun t => sc t * cEighth)) * vv t)
        (∑ t, Ideal.exp (sc t * cEighth - (Finset.univ : Finset ι).fold max cNegInf (fun t => sc t * cEighth)))
      = ∑ t, Ideal.div
          (Ideal.exp (Ideal.div (sc t) cEight
            - max cNegInf ((Finset.univ : Finset ι).fold max cNegInf (fun t => Ideal.div (sc t) cEight))))
          (cZero + ∑ t, Ideal.exp (Ideal.div (sc t) cEight
            - max cNegInf ((Finset.univ : Finset ι).fold max cNegInf (fun t => Ideal.div (sc t) cEight)))) * vv t := by
  rw [cEighth_eq, cEight_eq, cNegInf_eq, cZero_eq]
  simp only [Ideal.div_coe (show (8 : ℝ) ≠ 0 by norm_num), zero_add, max_eq_right bot_le]
  choose Z hZ using hsc
  choose V hV using hvv
  obtain rfl : sc = fun t => (Z t : EReal) := funext hZ
  obtain rfl : vv = fun t => (V t : EReal) := funext hV
  simp only [← EReal.coe_mul]
  obtain ⟨m, hm⟩ := fold_max_real (fun t => Z t * (1 / 8)) Finset.univ Finset.univ_nonempty
  rw [hm]
  simp only [← EReal.coe_sub, Ideal.exp_coe]
  exact div_sum_eq_sum_div (fun t => Real.exp (Z t * (1 / 8) - m)) V (fun t => Real.exp_pos _)

/-! ### The two contexts agree -/

theorem ctx_eq {q k v : Arr3} (hq : ∀ b s d, IsReal (q b s d)) (hk : ∀ b s d, IsReal (k b s d))
    (hv : ∀ b s d, IsReal (v b s d)) :
    ctxScaled cEighth cNegInf q k v = ctxDivided cEight cNegInf cZero q k v := by
  funext b s h j
  unfold ctxScaled ctxDivided
  exact softmax_law (fun t => score q k b h s t) (fun t => v b t (hcol h j))
    (fun t => isReal_score hq hk b h s t) (fun t => hv b t (hcol h j))

/-- The two specifications agree on real inputs with real query, key and value weights. -/
theorem kernelSpec_eq_referenceSpec {x : Arr3} {Wq Wk Wv Wo : Mat} {bo : Fin 1024 → EReal}
    (hx : ∀ b s d, IsReal (x b s d)) (hq : ∀ e d, IsReal (Wq e d)) (hk : ∀ e d, IsReal (Wk e d))
    (hv : ∀ e d, IsReal (Wv e d)) :
    kernelSpec x Wq Wk Wv Wo bo = referenceSpec x Wq Wk Wv Wo bo := by
  unfold kernelSpec referenceSpec
  rw [ctx_eq (isReal_proj hx hq) (isReal_proj hx hk) (isReal_proj hx hv)]

end Cert.MHA

end
-- ==== Proof.FiniteInputs.lean ====
/-
  From the precondition "every float input is finite" to "every entry of every input is a real number".

  The precondition is the conjunction, over the six inputs, of `all (|x| < +∞)`: an elementwise comparison of the
  absolute value against the f32 pattern of +∞, reduced by `and` over every axis.  The result being 1 gives the
  comparison at every index; at the extended reals `|a| < ⊤` excludes `a = ⊤` and `a = ⊥`, so `a` is a real.
-/
import proofs.«179820_j79611513799233_2_alg».proof.Proof.Spec
import proofs.«179820_j79611513799233_2_alg».proof.Pre_finite_inputs
import Idealize.ShloMosaic.Lib.ReduceAll
import Idealize.ShloMosaic.Lib.ValueIdx
import Idealize.ShloMosaic.Lib.IdealHost
import Idealize.ShloMosaic.PureOps.Ideal.Laws

namespace Cert.MHA.Finite

open Idealize.ShloMosaic Idealize.ShloMosaic.ValueIdx

/-- The rank-0 shape has one index. -/
instance : Subsingleton Cert.Pre_finite_inputs.S_.Idx := ⟨fun a b => funext fun d => d.elim0⟩

/-- The f32 pattern `0x7F800000` is +∞. -/
theorem ofBits_inf_f32 : Ideal.ofBits .f32 0x7F800000#32 = (⊤ : EReal) := by
  simp [Ideal.ofBits, Ideal.ieee]

/-- An extended real whose absolute value is below +∞ is a real number. -/
theorem isReal_of_abs_lt_top (a : EReal) (h : Ideal.cmp .olt (max a (-a)) (⊤ : EReal) = 1#1) : IsReal a := by
  induction a using EReal.rec with
  | bot => simp [Ideal.cmp] at h
  | coe r => exact ⟨r, rfl⟩
  | top => simp [Ideal.cmp] at h

/-- One input: the comparison `|x| < +∞` holding at an index makes that entry a real number. -/
theorem isReal_of_cmp {s : Shape} (hb : Cert.Pre_finite_inputs.S_.BroadcastsInDim s (![] : Fin 0 → Fin s.rank))
    (x : FVec Ideal s .f32) (i : s.Idx)
    (h : cmpf .olt (Host.absf x)
      (broadcastInDim s ![] hb (constant (F := Ideal) Cert.Pre_finite_inputs.S_ .f32 0x7F800000#32)) i = 1#1) :
    IsReal (x i) := by
  rw [cmpf_apply, broadcastInDim_scalar_apply, constant_apply, ofBits_inf_f32] at h
  exact isReal_of_abs_lt_top (x i) h

theorem real_of_pre [Cert.Pre_finite_inputs.Facts]
    (x0 : FVec Ideal Cert.Pre_finite_inputs.S2x2048x1024 .f32)
    (x1 x2 x3 x4 : FVec Ideal Cert.Pre_finite_inputs.S1024x1024 .f32)
    (x5 : FVec Ideal Cert.Pre_finite_inputs.S1024 .f32)
    (h : Cert.Pre_finite_inputs.fn (F := Ideal) x0 x1 x2 x3 x4 x5 = (fun _ => 1#1)) :
    (∀ i, Cert.MHA.IsReal (x0 i)) ∧ (∀ i, Cert.MHA.IsReal (x1 i)) ∧ (∀ i, Cert.MHA.IsReal (x2 i)) ∧
      (∀ i, Cert.MHA.IsReal (x3 i)) ∧ (∀ i, Cert.MHA.IsReal (x4 i)) ∧ (∀ i, Cert.MHA.IsReal (x5 i)) := by
  have h0 := congrFun h ValueIdx.ix0
  dsimp only [Cert.Pre_finite_inputs.fn, Cert.Pre_finite_inputs.fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨fun i => isReal_of_cmp _ x0 i (Host.reduce_andi_all _ _ _ _ _ e0 i),
    fun i => isReal_of_cmp _ x1 i (Host.reduce_andi_all _ _ _ _ _ e1 i),
    fun i => isReal_of_cmp _ x2 i (Host.reduce_andi_all _ _ _ _ _ e2 i),
    fun i => isReal_of_cmp _ x3 i (Host.reduce_andi_all _ _ _ _ _ e3 i),
    fun i => isReal_of_cmp _ x4 i (Host.reduce_andi_all _ _ _ _ _ e4 i),
    fun i => isReal_of_cmp _ x5 i (Host.reduce_andi_all _ _ _ _ _ e5 i)⟩

end Cert.MHA.Finite
-- ==== Proof.lean ====
/-
  The certificate of the multi-head attention kernel against its reference.

  Frames: the kernel program, at the word level and at the ideal level, is a host stretch, the projection region, a host
  stretch and the attention region; its run terminates without a fault and leaves the six argument arrays as launched.
  The reference is a straight line of host operations; its run is read back operation by operation.
  Nothing was rewritten between the kernel and its idealization.
  Algebraic: at the ideal level the kernel's result array is, index by index, the output projection and bias of the
  per-head contexts in which the scores are scaled by 1/8 and the weighted sum of v is divided by the row's total
  weight; the reference's is the same with the scores divided by 8 and each weight divided by the total before the sum.
  The two agree whenever the inputs are real numbers, which the precondition states: the row maximum is then real and
  attained, the weights are positive reals, their total is a positive real, and a finite sum of reals divided by a
  nonzero real is the sum of the quotients.
-/
import proofs.«179820_j79611513799233_2_alg».proof.Defs
import proofs.«179820_j79611513799233_2_alg».proof.Proof.Gen.Kernel
import proofs.«179820_j79611513799233_2_alg».proof.Proof.Gen.KernelIdeal
import proofs.«179820_j79611513799233_2_alg».proof.Proof.Gen.ReferenceIdeal
import proofs.«179820_j79611513799233_2_alg».proof.Proof.Gen.ReferenceIdeal.Run
import proofs.«179820_j79611513799233_2_alg».proof.Proof.Gen.ReferenceIdeal.Read
import proofs.«179820_j79611513799233_2_alg».proof.Proof.Gen.Pre_finite_inputs
import proofs.«179820_j79611513799233_2_alg».proof.Proof.Spec
import proofs.«179820_j79611513799233_2_alg».proof.Proof.MainRun
import proofs.«179820_j79611513799233_2_alg».proof.Proof.KMainRun
import proofs.«179820_j79611513799233_2_alg».proof.Proof.KernelValue
import proofs.«179820_j79611513799233_2_alg».proof.Proof.RefValue
import proofs.«179820_j79611513799233_2_alg».proof.Proof.SoftmaxLaw
import proofs.«179820_j79611513799233_2_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Run.frame m ρ

theorem frame_kernelIdeal : Cert.frame_KernelIdeal := fun m ρ _ => Cert.KernelIdeal.Run.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments the two idealized programs end with equal result arrays: the kernel's is
    the scaled-and-divided-after form, the reference's the divided-before form, of the same real inputs. -/
theorem algebraic : Cert.algebraic_KernelIdeal_ReferenceIdeal := by
  intro m ρ m' ρ' hpre hagree
  refine ⟨fun c => (Cert.KernelIdeal.Run.dat1 (Cert.KernelIdeal.Run.V3 m ρ) c).arrAt 5 Cert.KernelIdeal.cfg1.N,
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq]
  obtain ⟨h0, h1, h2, h3, h4, h5⟩ := hagree c
  rw [h0, h1, h2, h3, h4, h5]
  obtain ⟨r0, r1, r2, r3, -, -⟩ := Cert.MHA.Finite.real_of_pre _ _ _ _ _ _ (hpre c)
  funext i
  obtain ⟨b, s, e, rfl⟩ : ∃ (b : Fin 2) (s : Fin 2048) (e : Fin 1024), i = ix3 b s e := ⟨i 0, i 1, i 2, eq_ix3 i⟩
  rw [Cert.MHA.Reference.reference_value,
    ← Cert.MHA.kernelSpec_eq_referenceSpec (fun b s d => r0 _) (fun e d => r1 _) (fun e d => r2 _) (fun e d => r3 _)]
  exact (Cert.KernelIdeal.RunValue.kernel_value m ρ c b s e).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
